-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x64x16 : Shape := ⟨4, ![2, 512, 64, 16]⟩
abbrev S512x1024 : Shape := ⟨2, ![512, 1024]⟩
abbrev S512x512 : Shape := ⟨2, ![512, 512]⟩
abbrev S_ : Shape := ⟨0, ![]⟩

class Facts : Prop where
  bcast_S_S2x512x64x16 : S_.BroadcastsInDim S2x512x64x16 (![] : Fin 0 → Fin S2x512x64x16.rank)
  reducesTo_S2x512x64x16_S_d0_1_2_3 : S2x512x64x16.ReducesTo [0, 1, 2, 3] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  main_v18

def fn {F : FTy → Type} [FloatOps F] (main_arg0 : FVec F S2x512x64x16 .f32) (main_arg1 : FVec F S512x1024 .f32) (main_arg2 : FVec F S512x1024 .f32) (main_arg3 : FVec F S512x512 .f32) : IVec S_ 1 :=
  let main_v0 : FVec F S2x512x64x16 .f32 := Host.absf main_arg0
  let main_cst : FVec F S_ .f32 := constant S_ .f32 0x7F800000#32
  let main_v1 : FVec F S2x512x64x16 .f32 := broadcastInDim S2x512x64x16 ![] bcast_S_S2x512x64x16 main_cst
  let main_v2 : IVec S2x512x64x16 1 := cmpf .olt main_v0 main_v1
  let main_c : IVec S_ 1 := constantI S_ 1 1#1
  let main_v3 : IVec S_ 1 := (fun x v => Host.reduce IntOp.andi x v reducesTo_S2x512x64x16_S_d0_1_2_3 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_v13 main_v16
-- ==== Kernel.lean ====
abbrev S2x512x64x16 : Shape := ⟨4, ![2, 512, 64, 16]⟩
abbrev S512x1024 : Shape := ⟨2, ![512, 1024]⟩
abbrev S512x512 : Shape := ⟨2, ![512, 512]⟩
abbrev S2x512x1024 : Shape := ⟨3, ![2, 512, 1024]⟩
abbrev S2x512x512 : Shape := ⟨3, ![2, 512, 512]⟩
abbrev S1x512x1024 : Shape := ⟨3, ![1, 512, 1024]⟩
abbrev S32x512 : Shape := ⟨2, ![32, 512]⟩
abbrev S1x32x512 : Shape := ⟨3, ![1, 32, 512]⟩
abbrev S32x128 : Shape := ⟨2, ![32, 128]⟩
abbrev S512x128 : Shape := ⟨2, ![512, 128]⟩
abbrev S32x1x128 : Shape := ⟨3, ![32, 1, 128]⟩
abbrev S1x512x128 : Shape := ⟨3, ![1, 512, 128]⟩
abbrev S32x512x128 : Shape := ⟨3, ![32, 512, 128]⟩
abbrev S32 : Shape := ⟨1, ![32]⟩
abbrev S32x1 : Shape := ⟨2, ![32, 1]⟩

abbrev nBuf : Space → Nat
  | .hbm => 6
  | .vmem => 10
  | .smem => 0
  | _ => 0

abbrev bufTy : (tb : Table) → Fin (tcTables nBuf tb) → BufTy
  | .hbm, ⟨0, _⟩ => ⟨S2x512x64x16, .f32⟩
  | .hbm, ⟨1, _⟩ => ⟨S512x1024, .f32⟩
  | .hbm, ⟨2, _⟩ => ⟨S512x1024, .f32⟩
  | .hbm, ⟨3, _⟩ => ⟨S512x512, .f32⟩
  | .hbm, ⟨4, _⟩ => ⟨S2x512x1024, .f32⟩
  | .hbm, ⟨5, _⟩ => ⟨S2x512x512, .f32⟩
  | .local _ .vmem, ⟨0, _⟩ => ⟨S1x512x1024, .f32⟩
  | .local _ .vmem, ⟨1, _⟩ => ⟨S1x512x1024, .f32⟩
  | .local _ .vmem, ⟨2, _⟩ => ⟨S512x1024, .f32⟩
  | .local _ .vmem, ⟨3, _⟩ => ⟨S512x1024, .f32⟩
  | .local _ .vmem, ⟨4, _⟩ => ⟨S32x512, .f32⟩
  | .local _ .vmem, ⟨5, _⟩ => ⟨S32x512, .f32⟩
  | .local _ .vmem, ⟨6, _⟩ => ⟨S1x32x512, .f32⟩
  | .local _ .vmem, ⟨7, _⟩ => ⟨S1x32x512, .f32⟩
  | .local _ .vmem, ⟨8, _⟩ => ⟨S512x512, .f32⟩
  | .local _ .vmem, ⟨9, _⟩ => ⟨S512x512, .f32⟩
  | _, _ => ⟨S2x512x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c32_i32 : BitVec 32 := 32#32
  let v3 : BitVec 32 := Scalar.muli arg1 c32_i32
  v3
def k0_off1 (i : grid0.Coords) : Fin 2 → Nat :=
  let arg1 : BitVec 32 := BitVec.ofNat 32 (i 1).val
  let c32_i32 : BitVec 32 := 32#32
  let v3 : BitVec 32 := Scalar.muli arg1 c32_i32
  let v4 : BitVec 32 := v3
  let v5 : Index := Scalar.indexCast v4
  let c0 : Index := 0#32
  ![v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S2x512x64x16_S2x512x1024 : S2x512x64x16.ShapeCasts S2x512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  h_S32x512 : 0 < S32x512.numel
  slices_S32x512_o0_0_S32x128 : S32x512.Slices ![0, 0] S32x128
  slices_S512x512_o0_0_S512x128 : S512x512.Slices ![0, 0] S512x128
  shapeCasts_S32x128_S32x1x128 : S32x128.ShapeCasts S32x1x128
  shapeCasts_S512x128_S1x512x128 : S512x128.ShapeCasts S1x512x128
  broadcasts_S32x1x128_S32x512x128 : S32x1x128.Broadcasts S32x512x128
  broadcasts_S1x512x128_S32x512x128 : S1x512x128.Broadcasts S32x512x128
  reduces_S32x512x128_S32x512 : S32x512x128.Reduces [2] S32x512
  slices_S32x512_o0_128_S32x128 : S32x512.Slices ![0, 128] S32x128
  slices_S512x512_o0_128_S512x128 : S512x512.Slices ![0, 128] S512x128
  slices_S32x512_o0_256_S32x128 : S32x512.Slices ![0, 256] S32x128
  slices_S512x512_o0_256_S512x128 : S512x512.Slices ![0, 256] S512x128
  slices_S32x512_o0_384_S32x128 : S32x512.Slices ![0, 384] S32x128
  slices_S512x512_o0_384_S512x128 : S512x512.Slices ![0, 384] S512x128
  inb_S32x512_S32x512_0_0 : ∀ a, (![0, 0] : Fin 2 → Nat) a + S32x512.size a ≤ S32x512.size a
  reduces_S32x512_S32 : S32x512.Reduces [1] S32
  shapeCasts_S32_S32x1 : S32.ShapeCasts S32x1
  broadcasts_S32x1_S32x512 : S32x1.Broadcasts S32x512
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  shapeCasts_S32x512_S1x32x512 : S32x512.ShapeCasts S1x32x512
  dot_S512x1024_S512x1024_S512x512_1_1_0_0_n_n_wf : DotDims.WF S512x1024 S512x1024 S512x512 [1] [1] [0] [0] [] []
  hrank0 : 0 < grid0.rank
  k0_mult1_dvd : ∀ i : grid0.Coords, 32 ∣ (k0_mult1 i).toNat
  k0_off1_inb : ∀ i : grid0.Coords, ∀ a, (k0_off1 i) a + S32x512.size a ≤ S512x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S2x512x1024.size a
  hwx0_0 : ∀ i : grid0.Coords, EltTy.bits .f32 = 32 ∨ (Rect.block (s := S2x512x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .f32 = 32 ∨ (Rect.block (s := S512x1024) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x512.size a ≤ S512x512.size a
  hwx0_3 : ∀ i : grid0.Coords, EltTy.bits .f32 = 32 ∨ (Rect.block (s := S512x512) S32x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x512.size a ≤ S2x512x512.size a
  hwx0_4 : ∀ i : grid0.Coords, EltTy.bits .f32 = 32 ∨ (Rect.block (s := S2x512x512) S1x32x512.size (cc0_transform_4 i) (hinb0_4 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_v0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x32x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x512x64x16 : Shape := ⟨4, ![2, 512, 64, 16]⟩
abbrev S512x1024 : Shape := ⟨2, ![512, 1024]⟩
abbrev S512x512 : Shape := ⟨2, ![512, 512]⟩
abbrev S2x512x1024 : Shape := ⟨3, ![2, 512, 1024]⟩
abbrev S2x512x512 : Shape := ⟨3, ![2, 512, 512]⟩
abbrev S2x512x1x512 : Shape := ⟨4, ![2, 512, 1, 512]⟩
abbrev S2x1x512x512 : Shape := ⟨4, ![2, 1, 512, 512]⟩
abbrev S2x512x512x512 : Shape := ⟨4, ![2, 512, 512, 512]⟩
abbrev S_ : Shape := ⟨0, ![]⟩
abbrev S1x512x512 : Shape := ⟨3, ![1, 512, 512]⟩
abbrev S2x512 : Shape := ⟨2, ![2, 512]⟩
abbrev S2x512x1 : Shape := ⟨3, ![2, 512, 1]⟩

abbrev nBuf : Space → Nat
  | .hbm => 39
  | .vmem => 0
  | .smem => 0
  | _ => 0

abbrev bufTy : (tb : Table) → Fin (tcTables nBuf tb) → BufTy
  | .hbm, ⟨0, _⟩ => ⟨S2x512x64x16, .f32⟩
  | .hbm, ⟨1, _⟩ => ⟨S512x1024, .f32⟩
  | .hbm, ⟨2, _⟩ => ⟨S512x1024, .f32⟩
  | .hbm, ⟨3, _⟩ => ⟨S512x512, .f32⟩
  | .hbm, ⟨4, _⟩ => ⟨S2x512x1024, .f32⟩
  | .hbm, ⟨5, _⟩ => ⟨S2x512x512, .f32⟩
  | .hbm, ⟨6, _⟩ => ⟨S2x512x512, .f32⟩
  | .hbm, ⟨7, _⟩ => ⟨S2x512x1x512, .f32⟩
  | .hbm, ⟨8, _⟩ => ⟨S2x1x512x512, .f32⟩
  | .hbm, ⟨9, _⟩ => ⟨S2x512x512x512, .f32⟩
  | .hbm, ⟨10, _⟩ => ⟨S2x512x512x512, .f32⟩
  | .hbm, ⟨11, _⟩ => ⟨S2x512x512x512, .f32⟩
  | .hbm, ⟨12, _⟩ => ⟨S2x512x512x512, .f32⟩
  | .hbm, ⟨13, _⟩ => ⟨S2x512x512x512, .f32⟩
  | .hbm, ⟨14, _⟩ => ⟨S_, .f32⟩
  | .hbm, ⟨15, _⟩ => ⟨S2x512x512x512, .f32⟩
  | .hbm, ⟨16, _⟩ => ⟨S2x512x512x512, .f32⟩
  | .hbm, ⟨17, _⟩ => ⟨S_, .f32⟩
  | .hbm, ⟨18, _⟩ => ⟨S2x512x512x512, .f32⟩
  | .hbm, ⟨19, _⟩ => ⟨S2x512x512x512, .f32⟩
  | .hbm, ⟨20, _⟩ => ⟨S_, .f32⟩
  | .hbm, ⟨21, _⟩ => ⟨S2x512x512, .f32⟩
  | .hbm, ⟨22, _⟩ => ⟨S1x512x512, .f32⟩
  | .hbm, ⟨23, _⟩ => ⟨S2x512x512, .f32⟩
  | .hbm, ⟨24, _⟩ => ⟨S2x512x512, .f32⟩
  | .hbm, ⟨25, _⟩ => ⟨S_, .f32⟩
  | .hbm, ⟨26, _⟩ => ⟨S2x512, .f32⟩
  | .hbm, ⟨27, _⟩ => ⟨S_, .f32⟩
  | .hbm, ⟨28, _⟩ => ⟨S2x512, .f32⟩
  | .hbm, ⟨29, _⟩ => ⟨S2x512, .f32⟩
  | .hbm, ⟨30, _⟩ => ⟨S2x512x1, .f32⟩
  | .hbm, ⟨31, _⟩ => ⟨S2x512x512, .f32⟩
  | .hbm, ⟨32, _⟩ => ⟨S2x512x512, .f32⟩
  | .hbm, ⟨33, _⟩ => ⟨S2x512x512, .f32⟩
  | .hbm, ⟨34, _⟩ => ⟨S_, .f32⟩
  | .hbm, ⟨35, _⟩ => ⟨S2x512, .f32⟩
  | .hbm, ⟨36, _⟩ => ⟨S2x512x1, .f32⟩
  | .hbm, ⟨37, _⟩ => ⟨S2x512x512, .f32⟩
  | .hbm, ⟨38, _⟩ => ⟨S2x512x512, .f32⟩
  | _, _ => ⟨S2x512x64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  shapeCasts_S2x512x64x16_S2x512x1024 : S2x512x64x16.ShapeCasts S2x512x1024
  bcast_S2x512x512_S2x512x1x512_0_1_3 : S2x512x512.BroadcastsInDim S2x512x1x512 (![0, 1, 3] : Fin 3 → Fin S2x512x1x512.rank)
  bcast_S2x512x512_S2x1x512x512_0_2_3 : S2x512x512.BroadcastsInDim S2x1x512x512 (![0, 2, 3] : Fin 3 → Fin S2x1x512x512.rank)
  bcast_S2x512x1x512_S2x512x512x512_0_1_2_3 : S2x512x1x512.BroadcastsInDim S2x512x512x512 (![0, 1, 2, 3] : Fin 4 → Fin S2x512x512x512.rank)
  bcast_S2x1x512x512_S2x512x512x512_0_1_2_3 : S2x1x512x512.BroadcastsInDim S2x512x512x512 (![0, 1, 2, 3] : Fin 4 → Fin S2x512x512x512.rank)
  bcast_S_S2x512x512x512 : S_.BroadcastsInDim S2x512x512x512 (![] : Fin 0 → Fin S2x512x512x512.rank)
  reducesTo_S2x512x512x512_S2x512x512_d3 : S2x512x512x512.ReducesTo [3] S2x512x512
  h_S_ : 0 < S_.numel
  bcast_S512x512_S1x512x512_1_2 : S512x512.BroadcastsInDim S1x512x512 (![1, 2] : Fin 2 → Fin S1x512x512.rank)
  bcast_S1x512x512_S2x512x512_0_1_2 : S1x512x512.BroadcastsInDim S2x512x512 (![0, 1, 2] : Fin 3 → Fin S2x512x512.rank)
  reducesTo_S2x512x512_S2x512_d2 : S2x512x512.ReducesTo [2] S2x512
  bcast_S_S2x512 : S_.BroadcastsInDim S2x512 (![] : Fin 0 → Fin S2x512.rank)
  bcast_S2x512_S2x512x1_0_1 : S2x512.BroadcastsInDim S2x512x1 (![0, 1] : Fin 2 → Fin S2x512x1.rank)
  bcast_S2x512x1_S2x512x512_0_1_2 : S2x512x1.BroadcastsInDim S2x512x512 (![0, 1, 2] : Fin 3 → Fin S2x512x512.rank)
  dot_S2x512x1024_S512x1024_S2x512x512_2_1_01_0_n_n_wf : DotDims.WF S2x512x1024 S512x1024 S2x512x512 [2] [1] [0, 1] [0] [] []

variable [Facts₀]

def dot_S2x512x1024_S512x1024_S2x512x512_2_1_01_0_n_n : DotDims S2x512x1024 S512x1024 S2x512x512 where
  lhsContracting := [2]
  rhsContracting := [1]
  lhsNonContracting := [0, 1]
  rhsNonContracting := [0]
  lhsBatch := []
  rhsBatch := []
  wf := dot_S2x512x1024_S512x1024_S2x512x512_2_1_01_0_n_n_wf

class Facts : Prop extends Facts₀ where

variable [Facts]
-- ==== Proof.KernelPieces.lean ====
/-
  What one grid point's body leaves behind, as values.

  The body keeps two 512×512 scratches across the sixteen points of a batch: the batch's features against the
  rows of the first weight matrix (the query side) and against the rows of the second (the key side).  At the
  first point of a batch it stores both (`leftA`, `rightA`); at the other fifteen it stores neither.  At every
  point it then loads 32 rows of the query-side scratch (the point's query tile, `rowsAt`) and the whole
  key-side scratch, and stores one output block, `blockOf` of those two loads and the point's bias block.
  At a batch's first point the two loads read back what the point itself has just stored.
  So in both cases the output block is ONE function of what the scratches hold after the point.
-/
import proofs.«119343_j54065048322479_1_alg».proof.Proof.Gen.KernelIdeal.Frame
import Idealize.ShloMosaic.Lib.Pipeline.Value
import Idealize.ShloMosaic.Lib.Tactic

noncomputable section

namespace Cert.KernelIdeal.Attn

open Cert.KernelIdeal Cert.KernelIdeal.Gen Idealize.ShloMosaic Idealize.ShloMosaic.TcCoe Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The 32 rows of a 512×512 scratch that the point's query tile covers: rows `32·i₁ …`. -/
abbrev rowsAt (i : grid0.Coords) (X : Vec F S512x512 .f32) : Vec F S32x512 .f32 :=
  View.ld X (Rect.unit (s := S512x512) (k0_off1 i) S32x512.size (k0_off1_inb i))

/-- The output block from the query-side rows, the key-side scratch and the bias block. -/
abbrev blockOf (Lr : Vec F S32x512 .f32) (R : Vec F S512x512 .f32) (vs : Vec F S32x512 .f32) : Vec F S1x32x512 .f32 :=
  k0_pay1 (k0_pay5 Lr R) (k0_pay6 Lr R) vs

/-- A batch's first point leaves the query-side product in the first scratch. -/
theorem leftA (c : Dev nD) (i : grid0.Coords) (a2 : Memref sig .tc .vmem S1x512x1024 .f32) (h2 : a2.IsWhole) (a3 : Memref sig .tc .vmem S512x1024 .f32) (h3 : a3.IsWhole) (a4 : Memref sig .tc .vmem S512x1024 .f32) (h4 : a4.IsWhole) (a5 : Memref sig .tc .vmem S32x512 .f32) (h5 : a5.IsWhole) (a6 : Memref sig .tc .vmem S1x32x512 .f32) (h6 : a6.IsWhole) (a7 : Memref sig .tc .vmem S512x512 .f32) (h7 : a7.IsWhole) (a8 : Memref sig .tc .vmem S512x512 .f32) (h8 : a8.IsWhole) (hc : cond0_0 i)
    (x0 : Vec F S1x512x1024 .f32) (x1 : Vec F S512x1024 .f32) (x2 : Vec F S512x1024 .f32) (x3 : Vec F S32x512 .f32) :
    sout0_A_0 c i a2 h2 a3 h3 a4 h4 a5 h5 a6 h6 a7 h7 a8 h8 hc x0 x1 x2 x3 = k0_pay3 x0 x1 := by
  unfold sout0_A_0
  rw [View.read_writes_eq_canon _ _ _ (scover0_A_0 c i a2 h2 a3 h3 a4 h4 a5 h5 a6 h6 a7 h7 a8 h8 hc x0 x1 x2 x3)]
  unfold kernelRun0_A
  dsimp only
  sl_unfold_words
  rw [View.canon_unit_zero hz2]
  simp only [View.readAt_eq_ld, h2.read_unread, h3.read_unread, View.ld_unit_zero (S := S1x512x1024) hz3,
    View.ld_unit_zero (S := S512x1024) hz2]

/-- A batch's first point leaves the key-side product in the second scratch. -/
theorem rightA (c : Dev nD) (i : grid0.Coords) (a2 : Memref sig .tc .vmem S1x512x1024 .f32) (h2 : a2.IsWhole) (a3 : Memref sig .tc .vmem S512x1024 .f32) (h3 : a3.IsWhole) (a4 : Memref sig .tc .vmem S512x1024 .f32) (h4 : a4.IsWhole) (a5 : Memref sig .tc .vmem S32x512 .f32) (h5 : a5.IsWhole) (a6 : Memref sig .tc .vmem S1x32x512 .f32) (h6 : a6.IsWhole) (a7 : Memref sig .tc .vmem S512x512 .f32) (h7 : a7.IsWhole) (a8 : Memref sig .tc .vmem S512x512 .f32) (h8 : a8.IsWhole) (hc : cond0_0 i)
    (x0 : Vec F S1x512x1024 .f32) (x1 : Vec F S512x1024 .f32) (x2 : Vec F S512x1024 .f32) (x3 : Vec F S32x512 .f32) :
    sout0_A_1 c i a2 h2 a3 h3 a4 h4 a5 h5 a6 h6 a7 h7 a8 h8 hc x0 x1 x2 x3 = k0_pay4 x0 x2 := by
  unfold sout0_A_1
  rw [View.read_writes_eq_canon _ _ _ (scover0_A_1 c i a2 h2 a3 h3 a4 h4 a5 h5 a6 h6 a7 h7 a8 h8 hc x0 x1 x2 x3)]
  unfold kernelRun0_A
  dsimp only
  sl_unfold_words
  rw [View.canon_unit_zero hz2]
  simp only [View.readAt_eq_ld, h2.read_unread, h4.read_unread, View.ld_unit_zero (S := S1x512x1024) hz3,
    View.ld_unit_zero (S := S512x1024) hz2]

/-- A batch's first point's output block: the block function of the two products it has just stored. -/
theorem blockA (c : Dev nD) (i : grid0.Coords) (a2 : Memref sig .tc .vmem S1x512x1024 .f32) (h2 : a2.IsWhole) (a3 : Memref sig .tc .vmem S512x1024 .f32) (h3 : a3.IsWhole) (a4 : Memref sig .tc .vmem S512x1024 .f32) (h4 : a4.IsWhole) (a5 : Memref sig .tc .vmem S32x512 .f32) (h5 : a5.IsWhole) (a6 : Memref sig .tc .vmem S1x32x512 .f32) (h6 : a6.IsWhole) (a7 : Memref sig .tc .vmem S512x512 .f32) (h7 : a7.IsWhole) (a8 : Memref sig .tc .vmem S512x512 .f32) (h8 : a8.IsWhole) (hc : cond0_0 i)
    (x0 : Vec F S1x512x1024 .f32) (x1 : Vec F S512x1024 .f32) (x2 : Vec F S512x1024 .f32) (x3 : Vec F S32x512 .f32) :
    out0_A_4 c i a2 h2 a3 h3 a4 h4 a5 h5 a6 h6 a7 h7 a8 h8 hc x0 x1 x2 x3 = blockOf (rowsAt i (k0_pay3 x0 x1)) (k0_pay4 x0 x2) x3 := by
  unfold out0_A_4
  rw [View.read_writes_eq_canon _ _ _ (cover0_A_4 c i a2 h2 a3 h3 a4 h4 a5 h5 a6 h6 a7 h7 a8 h8 hc x0 x1 x2 x3)]
  unfold kernelRun0_A
  dsimp only
  sl_unfold_run_names
  rw [View.canon_unit_zero hz3]
  simp only [View.readAt_writes_junk_eq_canon, View.readCov_unit_zero (S := S512x512) _ hz2, View.canon_unit_zero (S := S512x512) hz2,
    View.readAt_eq_ld, h2.read_unread, h3.read_unread, h4.read_unread, h5.read_unread,
    View.ld_unit_zero (S := S1x512x1024) hz3, View.ld_unit_zero (S := S512x1024) hz2, View.ld_unit_zero (S := S32x512) hz2]
  rfl

/-- Any other point's output block: the block function of what the point before left in the scratches. -/
theorem blockB (c : Dev nD) (i : grid0.Coords) (a2 : Memref sig .tc .vmem S1x512x1024 .f32) (h2 : a2.IsWhole) (a3 : Memref sig .tc .vmem S512x1024 .f32) (h3 : a3.IsWhole) (a4 : Memref sig .tc .vmem S512x1024 .f32) (h4 : a4.IsWhole) (a5 : Memref sig .tc .vmem S32x512 .f32) (h5 : a5.IsWhole) (a6 : Memref sig .tc .vmem S1x32x512 .f32) (h6 : a6.IsWhole) (a7 : Memref sig .tc .vmem S512x512 .f32) (h7 : a7.IsWhole) (a8 : Memref sig .tc .vmem S512x512 .f32) (h8 : a8.IsWhole) (hc : ¬cond0_0 i)
    (x0 : Vec F S1x512x1024 .f32) (x1 : Vec F S512x1024 .f32) (x2 : Vec F S512x1024 .f32) (x3 : Vec F S32x512 .f32) (xs0 xs1 : Vec F S512x512 .f32) :
    out0_B_4 c i a2 h2 a3 h3 a4 h4 a5 h5 a6 h6 a7 h7 a8 h8 hc x0 x1 x2 x3 xs0 xs1 = blockOf (rowsAt i xs0) xs1 x3 := by
  unfold out0_B_4
  rw [View.read_writes_eq_canon _ _ _ (cover0_B_4 c i a2 h2 a3 h3 a4 h4 a5 h5 a6 h6 a7 h7 a8 h8 hc x0 x1 x2 x3 xs0 xs1)]
  unfold kernelRun0_B
  dsimp only
  sl_unfold_run_names
  rw [View.canon_unit_zero hz3]
  simp only [View.readAt_eq_ld, h5.read_unread, h7.read_unread, h8.read_unread,
    View.ld_unit_zero (S := S512x512) hz2, View.ld_unit_zero (S := S32x512) hz2]

end Cert.KernelIdeal.Attn

end
-- ==== Proof.Spec.lean ====
/-
  Additive attention through a sigmoid, then a softmax over the keys — the function both programs compute,
  entry by entry on the extended reals.

  For a batch `b`, a query node `i` and a key node `j`:
    • `proj f W b n` is row `n` of the batch's flattened features against every row of a weight matrix: the
      512 projected features of node `n`;
    • `pairScore l r v` adds up, over the 512 features, the sigmoid of (query feature + key feature), and then
      the pair's bias `v`;
    • `softmaxRow s q` is entry `q` of the softmax of a row `s` of 512 scores, shifted by the row's top value
      (`rowTop`: the larger of the word of −∞ and the row's running maximum from that word) before the
      exponential and divided by the sum of the row's exponentials.
  `attn` puts the three together.  Nothing here needs an entry to be finite: only sums, one maximum and the
  instance's own `exp`, `logistic` and `div` occur, each applied to the same arguments on both sides.
-/
import Idealize.ShloMosaic.PureOps.Ideal
import Idealize.ShloMosaic.PureOps.Ideal.Laws
import Idealize.ShloMosaic.Lib.ValueIdx

noncomputable section

namespace Cert.AttnSpec

open Idealize.ShloMosaic Idealize.ShloMosaic.ValueIdx
open scoped BigOperators

/-- The word of −∞ as both programs write it.  Its value is never needed: the same word stands on both sides. -/
abbrev negInf : EReal := Ideal.ofBits .f32 0xFF800000#32

/-- The projected features of node `n` of batch `b`: feature `m` is row `n` of the batch against row `m` of `W`. -/
def proj (f : FVec Ideal ⟨3, ![2, 512, 1024]⟩ .f32) (W : FVec Ideal ⟨2, ![512, 1024]⟩ .f32) (b : Fin 2) (n : Fin 512) :
    Fin 512 → EReal :=
  fun m => ∑ d : Fin 1024, f (ix3 b n d) * W (ix2 m d)

/-- The score of a (query, key) pair from their projected features and the pair's bias. -/
def pairScore (l r : Fin 512 → EReal) (v : EReal) : EReal :=
  (∑ k : Fin 512, Ideal.logistic (l k + r k)) + v

/-- What a row of scores is shifted by before the exponential. -/
def rowTop (s : Fin 512 → EReal) : EReal :=
  max negInf ((Finset.univ : Finset (Fin 512)).fold max negInf s)

/-- Entry `q` of the softmax of a row of 512 scores. -/
def softmaxRow (s : Fin 512 → EReal) (q : Fin 512) : EReal :=
  Ideal.div (Ideal.exp (s q - rowTop s)) (∑ j : Fin 512, Ideal.exp (s j - rowTop s))

theorem lt3_0 {a b c : ℕ} (y : (⟨3, ![a, b, c]⟩ : Shape).Idx) : (y 0).val < a := (y 0).isLt
theorem lt3_1 {a b c : ℕ} (y : (⟨3, ![a, b, c]⟩ : Shape).Idx) : (y 1).val < b := (y 1).isLt
theorem lt3_2 {a b c : ℕ} (y : (⟨3, ![a, b, c]⟩ : Shape).Idx) : (y 2).val < c := (y 2).isLt

/-- The attention weights: at `(b, i, j)`, entry `j` of the softmax of query `i`'s row of pair scores. -/
def attn (f : FVec Ideal ⟨3, ![2, 512, 1024]⟩ .f32) (W1 W2 : FVec Ideal ⟨2, ![512, 1024]⟩ .f32)
    (Vs : FVec Ideal ⟨2, ![512, 512]⟩ .f32) : FVec Ideal ⟨3, ![2, 512, 512]⟩ .f32 :=
  fun y => softmaxRow
    (fun j => pairScore (proj f W1 ⟨(y 0).val, lt3_0 y⟩ ⟨(y 1).val, lt3_1 y⟩) (proj f W2 ⟨(y 0).val, lt3_0 y⟩ j)
      (Vs (ix2 (⟨(y 1).val, lt3_1 y⟩ : Fin 512) j)))
    ⟨(y 2).val, lt3_2 y⟩

theorem attn_apply (f : FVec Ideal ⟨3, ![2, 512, 1024]⟩ .f32) (W1 W2 : FVec Ideal ⟨2, ![512, 1024]⟩ .f32)
    (Vs : FVec Ideal ⟨2, ![512, 512]⟩ .f32) (b : Fin 2) (i j : Fin 512) :
    attn f W1 W2 Vs (ix3 b i j)
      = softmaxRow (fun j' => pairScore (proj f W1 b i) (proj f W2 b j') (Vs (ix2 i j'))) j := rfl

end Cert.AttnSpec

end
-- ==== Proof.LibBlockedDense.lean ====
/-
  A dense layer against rows, y = x · wᵀ + b, read at an entry, and the same entry with the contraction cut into
  consecutive blocks.

  For x : [A, K], w : [C, K] and b : [C] the entry (r, q) of the layer is (Σ_{k < K} x(r,k) · w(q,k)) + b(q)
  on the extended reals (dense). When K = J · Kb the contraction splits into J consecutive blocks of Kb
  coordinates, Σ_{k < K} f k = Σ_{s < J} Σ_{u < Kb} f (Kb·s + u) (sum_blocks): nothing but commutativity and
  associativity of +, so it holds in any additive commutative monoid, the extended reals with their infinities
  included, and no entry has to be finite. An accumulator that starts from the zero word and adds one block's partial
  product per step therefore ends at the layer's entry before the bias is added (dense_blocked).

  Entries are addressed by NATURAL coordinates (at2, zero outside the matrix) so that a block's coordinate
  Kb·s + u needs no bound proof inside the sum.
-/
import Idealize.ShloMosaic.Lib.ValueIdx
import Idealize.ShloMosaic.PureOps.Ideal.Laws

namespace Cert.BlockedDense

open Idealize.ShloMosaic Idealize.ShloMosaic.ValueIdx
open scoped BigOperators

/-- The entry (r, k) of a matrix at natural coordinates; zero outside the matrix. -/
noncomputable def at2 {β : Type} [Zero β] {A B : ℕ} (x : (⟨2, ![A, B]⟩ : Shape).Idx → β) (r k : ℕ) : β :=
  if h : r < A ∧ k < B then x (ix2 ⟨r, h.1⟩ ⟨k, h.2⟩) else 0

theorem at2_of_lt {β : Type} [Zero β] {A B : ℕ} (x : (⟨2, ![A, B]⟩ : Shape).Idx → β) {r k : ℕ} (hr : r < A)
    (hk : k < B) : at2 x r k = x (ix2 ⟨r, hr⟩ ⟨k, hk⟩) := dif_pos ⟨hr, hk⟩

/-- At the coordinates of an index inside the matrix it is the matrix's entry. -/
theorem at2_val {β : Type} [Zero β] {A B : ℕ} (x : (⟨2, ![A, B]⟩ : Shape).Idx → β) (r : Fin A) (k : Fin B) :
    at2 x r.val k.val = x (ix2 r k) := dif_pos ⟨r.isLt, k.isLt⟩

/-- A sum over J · K consecutive coordinates is the sum over the J blocks of the sums over each block's K. -/
theorem sum_blocks {β : Type} [AddCommMonoid β] (J K n : ℕ) (h : n = J * K) (f : ℕ → β) :
    ∑ k : Fin n, f k.val = ∑ s ∈ Finset.range J, ∑ u : Fin K, f (K * s + u.val) := by
  subst h
  rw [← Fin.sum_univ_eq_sum_range (fun s => ∑ u : Fin K, f (K * s + u.val)) J,
    ← Equiv.sum_comp finProdFinEquiv, Fintype.sum_prod_type]
  refine Finset.sum_congr rfl fun s _ => Finset.sum_congr rfl fun u _ => ?_
  congr 1
  rw [finProdFinEquiv_apply_val]
  exact Nat.add_comm _ _

/-- The dense layer x · wᵀ + b at an entry: row r of x against row q of w, plus b q. -/
noncomputable def dense {A C K : ℕ} (x : (⟨2, ![A, K]⟩ : Shape).Idx → EReal) (w : (⟨2, ![C, K]⟩ : Shape).Idx → EReal)
    (b : (⟨1, ![C]⟩ : Shape).Idx → EReal) : (⟨2, ![A, C]⟩ : Shape).Idx → EReal :=
  fun i => (∑ k : Fin K, x (ix2 (⟨(i 0).val, idx2_lt0 i⟩ : Fin A) k) * w (ix2 (⟨(i 1).val, idx2_lt1 i⟩ : Fin C) k))
    + b (ix1 (⟨(i 1).val, idx2_lt1 i⟩ : Fin C))

theorem dense_apply {A C K : ℕ} (x : (⟨2, ![A, K]⟩ : Shape).Idx → EReal) (w : (⟨2, ![C, K]⟩ : Shape).Idx → EReal)
    (b : (⟨1, ![C]⟩ : Shape).Idx → EReal) (r : Fin A) (q : Fin C) :
    dense x w b (ix2 r q) = (∑ k : Fin K, x (ix2 r k) * w (ix2 q k)) + b (ix1 q) := rfl

/-- The layer's entry with the contraction cut into J blocks of Kb: the zero word, plus the blocks' partial
    products one after the other, plus the bias. -/
theorem dense_blocked {A C K : ℕ} (J Kb : ℕ) (hK : K = J * Kb) (x : (⟨2, ![A, K]⟩ : Shape).Idx → EReal)
    (w : (⟨2, ![C, K]⟩ : Shape).Idx → EReal) (b : (⟨1, ![C]⟩ : Shape).Idx → EReal) (r : Fin A) (q : Fin C) :
    dense x w b (ix2 r q)
      = (Ideal.ofBits .f32 0x00000000#32
          + ∑ s ∈ Finset.range J, ∑ u : Fin Kb, at2 x r.val (Kb * s + u.val) * at2 w q.val (Kb * s + u.val))
        + b (ix1 q) := by
  rw [dense_apply, Ideal.ofBits_zero_f32, zero_add,
    ← sum_blocks J Kb K hK (fun k => at2 x r.val k * at2 w q.val k)]
  congr 1
  exact Finset.sum_congr rfl fun k _ => by rw [at2_val, at2_val]

end Cert.BlockedDense
-- ==== Proof.ChunkSum.lean ====
/-
  A sum over 512 consecutive coordinates taken in four runs of 128, left to right from zero.

  The sum of `g 0, …, g 511` is `(((0 + A₀) + A₁) + A₂) + A₃` with `Aₛ` the sum of `g (128·s), …, g (128·s + 127)`:
  only commutativity and associativity of `+`, so it holds in any additive commutative monoid — on the extended
  reals whatever infinities the terms hold.  Terms are addressed by natural coordinates, so that a run's
  coordinate `offset + u` carries no bound proof inside the sum.
-/
import proofs.«119343_j54065048322479_1_alg».proof.Proof.LibBlockedDense

namespace Cert.ChunkSum

open scoped BigOperators

theorem sum_four_runs {β : Type} [AddCommMonoid β] (g : ℕ → β) :
    ∑ k : Fin 512, g k.val
      = (((0 + ∑ u : Fin 128, g (0 + u.val)) + ∑ u : Fin 128, g (128 + u.val)) + ∑ u : Fin 128, g (256 + u.val))
          + ∑ u : Fin 128, g (384 + u.val) := by
  rw [Cert.BlockedDense.sum_blocks 4 128 512 rfl g, Finset.sum_range_succ, Finset.sum_range_succ,
    Finset.sum_range_succ, Finset.sum_range_succ, Finset.sum_range_zero]

end Cert.ChunkSum
-- ==== Proof.LibRowDot.lean ====
/-
  Rows against rows: a matrix product that contracts the LAST axis of both operands, read at an entry.

  For `lhs : [a, K]` and `rhs : [b, K]` the product whose dimension numbers contract axis 1 of each and keep axis 0
  of each (the einsum `bh,ph->bp`: every row of the left operand against every row of the right one) reads, at the
  entry `(r, q)`, as the sum over `k : Fin K` of `lhs (r, k) · rhs (q, k)` — the dot product of row `r` with row `q`.
  This holds on the extended reals for the kernel's product into a zero accumulator and for the host's product alike.
  The dimension numbers enter only through four coordinate facts (the left operand's index keeps the output's row and
  takes the contraction's coordinate; the right operand's index keeps the output's column as ITS row and takes the
  contraction's coordinate), so the lemmas serve any record with those facts.
-/
import Idealize.ShloMosaic.Lib.Pipeline.Value
import Idealize.ShloMosaic.Lib.ValueIdx
import Idealize.ShloMosaic.PureOps.Ideal.Laws

namespace Cert.RowDot

open Idealize.ShloMosaic Idealize.ShloMosaic.ValueIdx
open scoped BigOperators

/-- The contraction's sum re-indexed by its one coordinate: at the entry `(r, q)` the operands are read along row `r`
    of the left one and row `q` of the right one. -/
theorem contr_sum_rows {a b K : ℕ} {φ₁ φ₂ : FTy} (d : DotDims ⟨2, ![a, K]⟩ ⟨2, ![b, K]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (i 1).val) (hr1 : ∀ i q, (d.rhsIdx i q 1).val = (q ⟨0, by omega⟩).val)
    (lhs : FVec Ideal ⟨2, ![a, K]⟩ φ₁) (rhs : FVec Ideal ⟨2, ![b, K]⟩ φ₂) (r : Fin a) (q : Fin b) :
    ∑ k : d.contr.Idx, lhs (d.lhsIdx (ix2 r q) k) * rhs (d.rhsIdx (ix2 r q) k)
      = ∑ k : Fin K, lhs (ix2 r k) * rhs (ix2 q k) := by
  rw [← Equiv.sum_comp (contrEquiv1 d K hr hs).symm]
  refine Finset.sum_congr rfl fun k _ => ?_
  have hk := contrEquiv1_symm_val d K hr hs k
  have el : d.lhsIdx (ix2 r q) ((contrEquiv1 d K hr hs).symm k) = ix2 r k := funext fun ax => Fin.ext (by
    match ax with
    | ⟨0, _⟩ => exact hl0 _ _
    | ⟨1, _⟩ => exact (hl1 _ _).trans hk)
  have er : d.rhsIdx (ix2 r q) ((contrEquiv1 d K hr hs).symm k) = ix2 q k := funext fun ax => Fin.ext (by
    match ax with
    | ⟨0, _⟩ => exact hr0 _ _
    | ⟨1, _⟩ => exact (hr1 _ _).trans hk)
  rw [el, er]

/-- The kernel's product into a zero accumulator, at an entry: the dot product of row `r` with row `q`. -/
theorem matmul_zero_rows {a b K : ℕ} {φ₁ φ₂ : FTy} (d : DotDims ⟨2, ![a, K]⟩ ⟨2, ![b, K]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (i 1).val) (hr1 : ∀ i q, (d.rhsIdx i q 1).val = (q ⟨0, by omega⟩).val)
    (prec : Option ContractPrecision) (lhs : FVec Ideal ⟨2, ![a, K]⟩ φ₁) (rhs : FVec Ideal ⟨2, ![b, K]⟩ φ₂)
    (r : Fin a) (q : Fin b) :
    matmul d prec lhs rhs (constant (F := Ideal) ⟨2, ![a, b]⟩ .f32 0x00000000#32) (ix2 r q)
      = ∑ k : Fin K, lhs (ix2 r k) * rhs (ix2 q k) :=
  (Ideal.matmul_constant_zero_apply d prec lhs rhs (ix2 r q)).trans
    (contr_sum_rows d hr hs hl0 hl1 hr0 hr1 lhs rhs r q)

/-- The host's product, at an entry: the same dot product of two rows. -/
theorem dotGeneral_rows {a b K : ℕ} {φ₁ φ₂ : FTy} (d : DotDims ⟨2, ![a, K]⟩ ⟨2, ![b, K]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (i 1).val) (hr1 : ∀ i q, (d.rhsIdx i q 1).val = (q ⟨0, by omega⟩).val)
    (prec : Option ContractPrecision) (lhs : FVec Ideal ⟨2, ![a, K]⟩ φ₁) (rhs : FVec Ideal ⟨2, ![b, K]⟩ φ₂)
    (r : Fin a) (q : Fin b) :
    Host.dotGeneral (F := Ideal) d prec lhs rhs (ix2 r q) = ∑ k : Fin K, lhs (ix2 r k) * rhs (ix2 q k) := by
  simp only [Host.dotGeneral]
  exact (Ideal.dotGeneral_apply d prec _ lhs rhs (ix2 r q)).trans
    (contr_sum_rows d hr hs hl0 hl1 hr0 hr1 lhs rhs r q)

end Cert.RowDot
-- ==== Proof.LibKeepdims.lean ====
/-
  A reduction that keeps its axis (a row sum with keepdims), read at an index written by coordinates.

  A row-wise statistic of an `[a, b]` vector — its sum over the lanes — is a vector `[a]`; kept as a column it is
  cast to `[a, 1]` and broadcast back over the `b` lanes.  Three readings make that chain transparent at an
  index `(p, c)`:
  • the lane sum at row `p` is the sum, over `k : Fin b`, of the entries `(p, k)`;
  • the cast `[a] → [a, 1]` reads, at `(i, u)`, the vector at `i` (the unit coordinate `u` carries nothing);
  • the broadcast `[a, 1] → [a, b]` reads, at `(p, c)`, the column's entry of row `p`.
  The row-major position of `(i, u)` in `[a, 1]` is `i · 1 + u = i`, that of `i` in `[a]` is `i`: the cast is the
  identity on positions.  A broadcast keeps a coordinate on an axis of extent other than one and reads `0` on a unit
  axis; when `a = 1` the row coordinate is `0` anyway.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx
open scoped BigOperators

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals the sum over the lanes of an `[a, b]` vector, read at row `p`, is the sum of that row's
    entries.  The side conditions are arguments, so the lemma meets a reduction whatever proofs it carries. -/
theorem multiReduction_add_rows {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => ?_
  exact congrArg src (funext fun c => Fin.ext (by match c with | ⟨0, _⟩ => rfl | ⟨1, _⟩ => rfl))

end Cert.Keepdims
-- ==== Proof.LibRowOps.lean ====
/-
  Rows of a matrix on the extended reals: a plain matrix product read at an entry, and a row's maximum.

  • A matrix product `[a, K] × [K, b]` whose dimension numbers contract the one shared axis reads, at the entry
    `(r, q)`, as the sum over `k : Fin K` of `lhs (r, k) · rhs (k, q)` — for the kernel's product into a zero
    accumulator and for the host's product alike.  The dimension numbers enter only through four coordinate facts
    (which operand coordinate is the output's, which is the contraction's), so the lemma serves any record.
  • The maximum over the lanes of an `[a, b]` matrix, read at row `p`, is the fold of `max` over that row's entries
    from the accumulator's value — for the kernel's lane reduction and for the host's one-axis reduction alike.
-/
import Idealize.ShloMosaic.Lib.Pipeline.Value
import Idealize.ShloMosaic.Lib.ValueIdx
import Idealize.ShloMosaic.PureOps.Ideal.Laws

namespace Cert.RowOps

open Idealize.ShloMosaic Idealize.ShloMosaic.ValueIdx
open scoped BigOperators

/-- The contraction's sum re-indexed by the one contracted coordinate, for operands read at indices whose
    coordinates are those of a plain product. -/
theorem contr_sum_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (lhs : FVec Ideal ⟨2, ![a, K]⟩ φ₁) (rhs : FVec Ideal ⟨2, ![K, b]⟩ φ₂) (r : Fin a) (q : Fin b) :
    ∑ k : d.contr.Idx, lhs (d.lhsIdx (ix2 r q) k) * rhs (d.rhsIdx (ix2 r q) k)
      = ∑ k : Fin K, lhs (ix2 r k) * rhs (ix2 k q) := by
  rw [← Equiv.sum_comp (contrEquiv1 d K hr hs).symm]
  refine Finset.sum_congr rfl fun k _ => ?_
  have hk := contrEquiv1_symm_val d K hr hs k
  have el : d.lhsIdx (ix2 r q) ((contrEquiv1 d K hr hs).symm k) = ix2 r k := funext fun ax => Fin.ext (by
    match ax with
    | ⟨0, _⟩ => exact hl0 _ _
    | ⟨1, _⟩ => exact (hl1 _ _).trans hk)
  have er : d.rhsIdx (ix2 r q) ((contrEquiv1 d K hr hs).symm k) = ix2 k q := funext fun ax => Fin.ext (by
    match ax with
    | ⟨0, _⟩ => exact (hr0 _ _).trans hk
    | ⟨1, _⟩ => exact hr1 _ _)
  rw [el, er]

/-- The kernel's product into a zero accumulator, at an entry. -/
theorem matmul_zero_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![a, K]⟩ φ₁) (rhs : FVec Ideal ⟨2, ![K, b]⟩ φ₂)
    (r : Fin a) (q : Fin b) :
    matmul d prec lhs rhs (constant (F := Ideal) ⟨2, ![a, b]⟩ .f32 0x00000000#32) (ix2 r q)
      = ∑ k : Fin K, lhs (ix2 r k) * rhs (ix2 k q) :=
  (Ideal.matmul_constant_zero_apply d prec lhs rhs (ix2 r q)).trans
    (contr_sum_entry d hr hs hl0 hl1 hr0 hr1 lhs rhs r q)

/-- The host's product, at an entry. -/
theorem dotGeneral_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![a, K]⟩ φ₁) (rhs : FVec Ideal ⟨2, ![K, b]⟩ φ₂)
    (r : Fin a) (q : Fin b) :
    Host.dotGeneral (F := Ideal) d prec lhs rhs (ix2 r q) = ∑ k : Fin K, lhs (ix2 r k) * rhs (ix2 k q) := by
  simp only [Host.dotGeneral]
  exact (Ideal.dotGeneral_apply d prec _ lhs rhs (ix2 r q)).trans
    (contr_sum_entry d hr hs hl0 hl1 hr0 hr1 lhs rhs r q)

/-- The kernel's maximum over the lanes, at a row: the fold of `max` over the row from the accumulator's value. -/
theorem multiReduction_max_rows {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  refine congrArg (Finset.fold max _ · _) (funext fun k => ?_)
  exact congrArg src (funext fun c => Fin.ext (by match c with | ⟨0, _⟩ => rfl | ⟨1, _⟩ => rfl))

/-- The host's maximum over the lanes, at a row: the same fold from the initial value. -/
theorem hostReduce_max_rows {a b : ℕ} {φ : FTy} (x : FVec Ideal ⟨2, ![a, b]⟩ φ) (init : FVec Ideal ⟨0, ![]⟩ φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce (FloatOps.maximumf (F := Ideal) (φ := φ)) x init h' hu (ix1 p)
      = (Finset.univ : Finset (Fin b)).fold max (init ix0) (fun k => x (ix2 p k)) := by
  refine (Host.reduce_eq_fold_single FloatOps.maximumf x init h' h hu (ix1 p)).trans ?_
  rw [eq_ix0 (Shape.Idx.first hu)]
  refine congrArg (Finset.fold max _ · _) (funext fun k => ?_)
  exact congrArg x (funext fun c => Fin.ext (by match c with | ⟨0, _⟩ => rfl | ⟨1, _⟩ => rfl))

end Cert.RowOps
-- ==== Proof.KernelBody.lean ====
/-
  The body's arithmetic read at an entry, on the extended reals.

  • The two stored products: entry (r, q) of a scratch is row r of the batch's features against row q of the
    weight matrix, a sum over the 1024 input features (the rounding to the narrower format is the identity here,
    and the product starts from the zero word).
  • The pairwise term: the body cuts the 512 projected features into four runs of 128; within a run it adds
    query row p's feature and key row j's feature for every (p, j) at once (a 32×512×128 array), takes the
    sigmoid, and sums over the run.  Entry (p, j, u) of a run is the sigmoid of (feature o+u of query row p) +
    (feature o+u of key row j), `o` the run's offset.
  • The score: the runs are added left to right from the zero word, then the bias.  By the law of
    `Cert.ChunkSum` this is the pair's score of the specification.
  • The softmax of the 32 rows of scores: the row's top value is kept as a column and broadcast back, and so is
    the row's sum of exponentials; entry (p, q) is the specification's `softmaxRow` of row p at q.
-/
import proofs.«119343_j54065048322479_1_alg».proof.Proof.Gen.KernelIdeal.Skeleton
import proofs.«119343_j54065048322479_1_alg».proof.Proof.Spec
import proofs.«119343_j54065048322479_1_alg».proof.Proof.ChunkSum
import proofs.«119343_j54065048322479_1_alg».proof.Proof.LibRowDot
import proofs.«119343_j54065048322479_1_alg».proof.Proof.LibKeepdims
import proofs.«119343_j54065048322479_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.AttnBody

open Cert.KernelIdeal Cert.KernelIdeal.Gen Idealize.ShloMosaic Idealize.ShloMosaic.ValueIdx Cert.AttnSpec Cert.BlockedDense
open scoped BigOperators

/-! ## The two products -/

theorem dotL0 (i : S512x512.Idx) (q : dot_S512x1024_S512x1024_S512x512_1_1_0_0_n_n.contr.Idx) : (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide),
    dif_pos (show (0 : Fin S512x1024.rank) ∈ dot_S512x1024_S512x1024_S512x512_1_1_0_0_n_n.lhsNonContracting by decide)]
  rfl
theorem dotL1 (i : S512x512.Idx) (q : dot_S512x1024_S512x1024_S512x512_1_1_0_0_n_n.contr.Idx) : (dot_S512x1024_S512x1024_S512x512_1_1_0_0_n_n.lhsIdx i q 1).val = (q ⟨0, by decide⟩).val :=
  dot_S512x1024_S512x1024_S512x512_1_1_0_0_n_n.lhsIdx_val_of_single rfl i q
theorem dotR0 (i : S512x512.Idx) (q : dot_S512x1024_S512x1024_S512x512_1_1_0_0_n_n.contr.Idx) : (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide),
    dif_pos (show (0 : Fin S512x1024.rank) ∈ dot_S512x1024_S512x1024_S512x512_1_1_0_0_n_n.rhsNonContracting by decide)]
  rfl
theorem dotR1 (i : S512x512.Idx) (q : dot_S512x1024_S512x1024_S512x512_1_1_0_0_n_n.contr.Idx) : (dot_S512x1024_S512x1024_S512x512_1_1_0_0_n_n.rhsIdx i q 1).val = (q ⟨0, by decide⟩).val :=
  dot_S512x1024_S512x1024_S512x512_1_1_0_0_n_n.rhsIdx_val_of_single rfl i q

/-- A product of the batch's block (its leading unit axis dropped) with a weight matrix, rows against rows,
    at an entry. -/
theorem product_apply (x0 : Vec Ideal S1x512x1024 .f32) (w : Vec Ideal S512x1024 .f32) (r q : Fin 512) :
    matmul dot_S512x1024_S512x1024_S512x512_1_1_0_0_n_n none (truncf .bf16 (shapeCast S512x1024 x0 shapeCasts_S1x512x1024_S512x1024) bitsLt_bf16_f32)
        (truncf .bf16 w bitsLt_bf16_f32) (constant (F := Ideal) S512x512 .f32 0x00000000#32) (ix2 r q)
      = ∑ d : Fin 1024, x0 (ix3 (0 : Fin 1) r d) * w (ix2 q d) := by
  refine (Cert.RowDot.matmul_zero_rows dot_S512x1024_S512x1024_S512x512_1_1_0_0_n_n rfl rfl dotL0 dotL1 dotR0 dotR1 none _ _ r q).trans ?_
  exact Finset.sum_congr rfl fun d _ => congrArg (· * w (ix2 q d)) (shapeCast_1ab_ab_apply x0 _ r d)

/-- The query-side scratch at an entry. -/
theorem left_apply (x0 : Vec Ideal S1x512x1024 .f32) (x1 : Vec Ideal S512x1024 .f32) (r q : Fin 512) :
    k0_pay3 (F := Ideal) x0 x1 (ix2 r q) = ∑ d : Fin 1024, x0 (ix3 (0 : Fin 1) r d) * x1 (ix2 q d) := by
  have e : k0_pay3 (F := Ideal) x0 x1
      = matmul dot_S512x1024_S512x1024_S512x512_1_1_0_0_n_n none (truncf .bf16 (shapeCast S512x1024 x0 shapeCasts_S1x512x1024_S512x1024) bitsLt_bf16_f32)
          (truncf .bf16 x1 bitsLt_bf16_f32) (constant (F := Ideal) S512x512 .f32 0x00000000#32) := by
    unfold k0_pay3 k0_pay2; exact shapeCast_self _ _
  rw [e]; exact product_apply x0 x1 r q

/-- The key-side scratch at an entry. -/
theorem right_apply (x0 : Vec Ideal S1x512x1024 .f32) (x2 : Vec Ideal S512x1024 .f32) (r q : Fin 512) :
    k0_pay4 (F := Ideal) x0 x2 (ix2 r q) = ∑ d : Fin 1024, x0 (ix3 (0 : Fin 1) r d) * x2 (ix2 q d) := by
  have e : k0_pay4 (F := Ideal) x0 x2
      = matmul dot_S512x1024_S512x1024_S512x512_1_1_0_0_n_n none (truncf .bf16 (shapeCast S512x1024 x0 shapeCasts_S1x512x1024_S512x1024) bitsLt_bf16_f32)
          (truncf .bf16 x2 bitsLt_bf16_f32) (constant (F := Ideal) S512x512 .f32 0x00000000#32) := by
    unfold k0_pay4 k0_pay2; exact shapeCast_self _ _
  rw [e]; exact product_apply x0 x2 r q

/-! ## One run of 128 pairwise terms -/

/-- The sigmoid term of feature `n` of query row `p` of `L` and key row `j` of `R`, the feature a natural coordinate. -/
def term (L : FVec Ideal S32x512 .f32) (R : FVec Ideal S512x512 .f32) (p : Fin 32) (j : Fin 512) (n : ℕ) : EReal :=
  Ideal.logistic (at2 L p.val n + at2 R j.val n)

/-- The run of 128 terms from feature offset `o`, as the body spells it: both operands cut along the features,
    given the axis they lack, spread over it, added, and passed through the sigmoid. -/
def run (o : ℕ) (L : FVec Ideal S32x512 .f32) (R : FVec Ideal S512x512 .f32)
    (hL : S32x512.Slices ![0, o] S32x128) (hR : S512x512.Slices ![0, o] S512x128) : FVec Ideal S32x512x128 .f32 :=
  logistic (addf
    (broadcastTo S32x512x128 (shapeCast S32x1x128 (extractStridedSlice S32x128 ![0, o] L hL) shapeCasts_S32x128_S32x1x128)
      broadcasts_S32x1x128_S32x512x128)
    (broadcastTo S32x512x128 (shapeCast S1x512x128 (extractStridedSlice S512x128 ![0, o] R hR) shapeCasts_S512x128_S1x512x128)
      broadcasts_S1x512x128_S32x512x128))

theorem run_apply (o : ℕ) (L : FVec Ideal S32x512 .f32) (R : FVec Ideal S512x512 .f32)
    (hL : S32x512.Slices ![0, o] S32x128) (hR : S512x512.Slices ![0, o] S512x128) (ho : o + 128 ≤ 512)
    (p : Fin 32) (j : Fin 512) (u : Fin 128) :
    run o L R hL hR (ix3 p j u) = term L R p j (o + u.val) := by
  have hk : o + u.val < 512 := by have := u.isLt; omega
  have e1 : broadcastTo S32x512x128 (shapeCast S32x1x128 (extractStridedSlice S32x128 ![0, o] L hL) shapeCasts_S32x128_S32x1x128)
      broadcasts_S32x1x128_S32x512x128 (ix3 p j u) = L (ix2 p ⟨o + u.val, hk⟩) :=
    (broadcastTo_apply _ _ (ix3 p j u) (ix3 p (0 : Fin 1) u) (fun a => by
        match a with
        | ⟨0, _⟩ => rfl
        | ⟨1, _⟩ => rfl
        | ⟨2, _⟩ => rfl)).trans
      ((shapeCast_apply _ _ (ix3 p (0 : Fin 1) u) (ix2 p u) (by
          rw [Shape.rowMajor_val_two, Shape.rowMajor_val_three]
          show p.val * 128 + u.val = (p.val * 1 + 0) * 128 + u.val
          omega)).trans
        (slice2_axis1_apply o L hL p u ⟨o + u.val, hk⟩ rfl))
  have e2 : broadcastTo S32x512x128 (shapeCast S1x512x128 (extractStridedSlice S512x128 ![0, o] R hR) shapeCasts_S512x128_S1x512x128)
      broadcasts_S1x512x128_S32x512x128 (ix3 p j u) = R (ix2 j ⟨o + u.val, hk⟩) :=
    (broadcastTo_apply _ _ (ix3 p j u) (ix3 (0 : Fin 1) j u) (fun a => by
        match a with
        | ⟨0, _⟩ => rfl
        | ⟨1, _⟩ => rfl
        | ⟨2, _⟩ => rfl)).trans
      ((shapeCast_ab_1ab_apply _ _ (0 : Fin 1) j u).trans
        (slice2_axis1_apply o R hR j u ⟨o + u.val, hk⟩ rfl))
  unfold term
  rw [at2_of_lt L p.isLt hk, at2_of_lt R j.isLt hk]
  exact congrArg Ideal.logistic (congrArg₂ (· + ·) e1 e2)

/-- A sum over the last axis of a 32×512×128 array, at (p, j). -/
theorem lastAxisSum_apply (v : FVec Ideal S32x512x128 .f32) (acc : BitVec 32) (h : S32x512x128.Reduces [2] S32x512)
    (hφ : FKind.Formats .f32) (hacc : acc = FKind.add.neutral .f32 hφ) (p : Fin 32) (j : Fin 512) :
    multiReduction .add [2] S32x512 v acc h hφ hacc (ix2 p j) = ∑ u : Fin 128, v (ix3 p j u) :=
  (Ideal.multiReduction_add_single v acc h hφ hacc (ix2 p j)).trans
    (Finset.sum_congr rfl fun u _ => congrArg v (funext fun c => Fin.ext (by
      match c with
      | ⟨0, _⟩ => rfl
      | ⟨1, _⟩ => rfl
      | ⟨2, _⟩ => rfl)))

theorem runSum_apply (o : ℕ) (L : FVec Ideal S32x512 .f32) (R : FVec Ideal S512x512 .f32)
    (hL : S32x512.Slices ![0, o] S32x128) (hR : S512x512.Slices ![0, o] S512x128) (ho : o + 128 ≤ 512)
    (acc : BitVec 32) (h : S32x512x128.Reduces [2] S32x512) (hφ : FKind.Formats .f32) (hacc : acc = FKind.add.neutral .f32 hφ)
    (p : Fin 32) (j : Fin 512) :
    multiReduction .add [2] S32x512 (run o L R hL hR) acc h hφ hacc (ix2 p j) = ∑ u : Fin 128, term L R p j (o + u.val) :=
  (lastAxisSum_apply _ acc h hφ hacc p j).trans (Finset.sum_congr rfl fun u _ => run_apply o L R hL hR ho p j u)

/-! ## The score of a pair -/

/-- The first three runs, added left to right from the zero word. -/
theorem firstRuns_apply (L : FVec Ideal S32x512 .f32) (R : FVec Ideal S512x512 .f32) (p : Fin 32) (j : Fin 512) :
    k0_pay5 (F := Ideal) L R (ix2 p j)
      = ((Ideal.ofBits .f32 0x00000000#32 + ∑ u : Fin 128, term L R p j (0 + u.val)) + ∑ u : Fin 128, term L R p j (128 + u.val))
          + ∑ u : Fin 128, term L R p j (256 + u.val) := by
  have e : k0_pay5 (F := Ideal) L R
      = addf (addf (addf (broadcast S32x512 (Scalar.ofBits (F := Ideal) .f32 0x00000000#32))
          (multiReduction .add [2] S32x512 (run 0 L R slices_S32x512_o0_0_S32x128 slices_S512x512_o0_0_S512x128) 0x00000000#32 reduces_S32x512x128_S32x512 (.inl rfl) rfl))
          (multiReduction .add [2] S32x512 (run 128 L R slices_S32x512_o0_128_S32x128 slices_S512x512_o0_128_S512x128) 0x00000000#32 reduces_S32x512x128_S32x512 (.inl rfl) rfl))
          (multiReduction .add [2] S32x512 (run 256 L R slices_S32x512_o0_256_S32x128 slices_S512x512_o0_256_S512x128) 0x00000000#32 reduces_S32x512x128_S32x512 (.inl rfl) rfl) := rfl
  rw [e]
  exact congrArg₂ (· + ·) (congrArg₂ (· + ·) (congrArg₂ (· + ·) rfl
    (runSum_apply 0 L R _ _ (by norm_num) _ _ _ _ p j)) (runSum_apply 128 L R _ _ (by norm_num) _ _ _ _ p j))
    (runSum_apply 256 L R _ _ (by norm_num) _ _ _ _ p j)

/-- The fourth run, not yet summed. -/
theorem lastRun_apply (L : FVec Ideal S32x512 .f32) (R : FVec Ideal S512x512 .f32) (p : Fin 32) (j : Fin 512) (u : Fin 128) :
    k0_pay6 (F := Ideal) L R (ix3 p j u) = term L R p j (384 + u.val) :=
  run_apply 384 L R slices_S32x512_o0_384_S32x128 slices_S512x512_o0_384_S512x128 (by norm_num) p j u

/-- The four runs and the bias are the pair's score. -/
theorem score_apply (L : FVec Ideal S32x512 .f32) (R : FVec Ideal S512x512 .f32) (vs : FVec Ideal S32x512 .f32)
    (p : Fin 32) (j : Fin 512) :
    (k0_pay5 (F := Ideal) L R (ix2 p j) + ∑ u : Fin 128, k0_pay6 (F := Ideal) L R (ix3 p j u)) + vs (ix2 p j)
      = pairScore (fun k => L (ix2 p k)) (fun k => R (ix2 j k)) (vs (ix2 p j)) := by
  unfold pairScore
  refine congrArg (· + vs (ix2 p j)) ?_
  rw [firstRuns_apply, Finset.sum_congr rfl (fun u _ => lastRun_apply L R p j u), Ideal.ofBits_zero_f32]
  have hs : (∑ k : Fin 512, Ideal.logistic (L (ix2 p k) + R (ix2 j k))) = ∑ k : Fin 512, term L R p j k.val :=
    Finset.sum_congr rfl fun k _ => by unfold term; rw [at2_val, at2_val]
  rw [hs]
  exact (Cert.ChunkSum.sum_four_runs (term L R p j)).symm

/-! ## The softmax of the rows -/

/-- The scores of the block: the first three runs, the fourth run summed, the bias. -/
def scores (v38 : FVec Ideal S32x512 .f32) (v46 : FVec Ideal S32x512x128 .f32) (vs : FVec Ideal S32x512 .f32) : FVec Ideal S32x512 .f32 :=
  addf (addf v38 (multiReduction .add [2] S32x512 v46 0x00000000#32 reduces_S32x512x128_S32x512 (.inl rfl) rfl)) vs

/-- Each row's top value. -/
def tops (s : FVec Ideal S32x512 .f32) : FVec Ideal S32 .f32 :=
  maximumf (broadcast S32 (Scalar.ofBits (F := Ideal) .f32 0xFF800000#32))
    (multiReduction .maximumf [1] S32 s 0xFF800000#32 reduces_S32x512_S32 (.inl rfl) rfl)

/-- The exponentials of the scores less their row's top value. -/
def exps (s : FVec Ideal S32x512 .f32) : FVec Ideal S32x512 .f32 :=
  exp (subf s (broadcastTo S32x512 (shapeCast S32x1 (tops s) shapeCasts_S32_S32x1) broadcasts_S32x1_S32x512))

/-- The exponentials over their row's sum, with the block's leading unit axis. -/
def weights (s : FVec Ideal S32x512 .f32) : FVec Ideal S1x32x512 .f32 :=
  shapeCast S1x32x512 (divf (exps s) (broadcastTo S32x512 (shapeCast S32x1
    (multiReduction .add [1] S32 (exps s) 0x00000000#32 reduces_S32x512_S32 (.inl rfl) rfl) shapeCasts_S32_S32x1)
    broadcasts_S32x1_S32x512)) shapeCasts_S32x512_S1x32x512

theorem block_eq (v38 : FVec Ideal S32x512 .f32) (v46 : FVec Ideal S32x512x128 .f32) (vs : Vec Ideal S32x512 .f32) :
    k0_pay1 (F := Ideal) v38 v46 vs = weights (scores v38 v46 vs) := rfl

theorem scores_apply (v38 : FVec Ideal S32x512 .f32) (v46 : FVec Ideal S32x512x128 .f32) (vs : FVec Ideal S32x512 .f32)
    (p : Fin 32) (j : Fin 512) :
    scores v38 v46 vs (ix2 p j) = (v38 (ix2 p j) + ∑ u : Fin 128, v46 (ix3 p j u)) + vs (ix2 p j) :=
  congrArg (· + vs (ix2 p j)) (congrArg (v38 (ix2 p j) + ·) (lastAxisSum_apply v46 _ _ _ _ p j))

theorem tops_apply (s : FVec Ideal S32x512 .f32) (p : Fin 32) : tops s (ix1 p) = rowTop (fun j => s (ix2 p j)) :=
  congrArg (max negInf) (Cert.RowOps.multiReduction_max_rows s _ _ _ _ p)

theorem exps_apply (s : FVec Ideal S32x512 .f32) (p : Fin 32) (k : Fin 512) :
    exps s (ix2 p k) = Ideal.exp (s (ix2 p k) - rowTop (fun j => s (ix2 p j))) :=
  congrArg (fun t => Ideal.exp (s (ix2 p k) - t))
    ((Cert.Keepdims.broadcastTo_a1_ab_apply _ _ p k).trans
      ((Cert.Keepdims.shapeCast_a_a1_apply (tops s) _ p (0 : Fin 1)).trans (tops_apply s p)))

theorem weights_apply (s : FVec Ideal S32x512 .f32) (p : Fin 32) (q : Fin 512) :
    weights s (ix3 (0 : Fin 1) p q) = softmaxRow (fun j => s (ix2 p j)) q := by
  unfold weights softmaxRow
  refine (shapeCast_ab_1ab_apply _ _ (0 : Fin 1) p q).trans ?_
  refine congrArg₂ Ideal.div (exps_apply s p q) ?_
  refine (Cert.Keepdims.broadcastTo_a1_ab_apply _ _ p q).trans ?_
  refine (Cert.Keepdims.shapeCast_a_a1_apply _ _ p (0 : Fin 1)).trans ?_
  refine (Cert.Keepdims.multiReduction_add_rows (exps s) _ _ _ _ p).trans ?_
  exact Finset.sum_congr rfl fun k _ => exps_apply s p k

/-- THE BLOCK: from the query tile's rows `L` of the query-side scratch, the key-side scratch `R` and the bias
    block, entry (p, q) of the output block is the softmax, at q, of query row p's scores against every key row. -/
theorem block_apply (L : Vec Ideal S32x512 .f32) (R : Vec Ideal S512x512 .f32) (vs : Vec Ideal S32x512 .f32)
    (p : Fin 32) (q : Fin 512) :
    k0_pay1 (F := Ideal) (k0_pay5 L R) (k0_pay6 L R) vs (ix3 (0 : Fin 1) p q)
      = softmaxRow (fun j => pairScore (fun k => L (ix2 p k)) (fun k => R (ix2 j k)) (vs (ix2 p j))) q := by
  rw [block_eq, weights_apply]
  exact congrArg (softmaxRow · q) (funext fun j => (scores_apply _ _ _ p j).trans (score_apply L R vs p j))

end Cert.KernelIdeal.AttnBody

end
-- ==== Proof.KernelValue.lean ====
/-
  The kernel's result array is the specification's attention weights of the arrays the region finds.

  The grid has 2 × 16 points; point t works on batch t / 16 and on the query tile of rows 32·(t mod 16) ….
    • Every point of a batch sees the same features block (the batch's 512 × 1024 slab) and the two whole weight
      matrices; its bias block is rows 32·(t mod 16) … of the bias matrix.
    • THE SCRATCH INVARIANT, by induction on the point: after point t the two scratches hold the projected features
      of batch t / 16 against the two weight matrices.  At a batch's first point the body has just stored them; at
      any other point it stores nothing and the point before is of the same batch.
    • So the block a point writes back is, at (p, q), the softmax at q of query row 32·(t mod 16) + p's scores
      against every key row of the batch: the specification read through the point's block.
    • The 32 blocks tile the 2 × 512 × 512 result, so the array ends at the specification everywhere.
-/
import proofs.«119343_j54065048322479_1_alg».proof.Proof.Gen.KernelIdeal.Value
import proofs.«119343_j54065048322479_1_alg».proof.Proof.KernelPieces
import proofs.«119343_j54065048322479_1_alg».proof.Proof.KernelBody
import proofs.«119343_j54065048322479_1_alg».proof.Proof.Spec
import Idealize.ShloMosaic.Lib.Pipeline.Value
import Idealize.ShloMosaic.Lib.ValueIdx
import Idealize.ShloMosaic.Lib.StableHlo.Run

noncomputable section

namespace Cert.KernelIdeal.AttnValue

open Cert.KernelIdeal Cert.KernelIdeal.Gen Cert.KernelIdeal.Value Cert.KernelIdeal.Attn Cert.KernelIdeal.AttnBody Cert.AttnSpec
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

/-- The arrays as the region finds them: the reshaped features, the two weight matrices, the bias matrix. -/
def feats (c : Dev nD) : FVec Ideal ⟨3, ![2, 512, 1024]⟩ .f32 := V m c main_v0
def wq (c : Dev nD) : FVec Ideal ⟨2, ![512, 1024]⟩ .f32 := V m c main_arg1
def wk (c : Dev nD) : FVec Ideal ⟨2, ![512, 1024]⟩ .f32 := V m c main_arg2
def bias (c : Dev nD) : FVec Ideal ⟨2, ![512, 512]⟩ .f32 := V m c main_arg3

/-! ## Where each point's blocks sit -/

/-- The printed index maps and the query tile's row offset, decided over the 32 points. -/
theorem idx_facts : ∀ t : Fin cfg0.N,
    win0_0.index t (0 : Fin 3) = t.val / 16 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val % 16 ∧ win0_3.index t (1 : Fin 2) = 0
    ∧ win0_4.index t (0 : Fin 3) = t.val / 16 ∧ win0_4.index t (1 : Fin 3) = t.val % 16 ∧ win0_4.index t (2 : Fin 3) = 0
    ∧ k0_off1 (grid0.coords t) (0 : Fin 2) = 32 * (t.val % 16) ∧ k0_off1 (grid0.coords t) (1 : Fin 2) = 0 :=
  (by decide +kernel : ∀ t : Fin grid0.N, _)

/-- Every (batch, query tile) is some point's output block. -/
theorem idx_onto : ∀ (q0 : Fin 2) (q1 : Fin 16), ∃ t : Fin cfg0.N, win0_4.index t = ![q0.val, q1.val, 0] :=
  (by decide +kernel : ∀ (q0 : Fin 2) (q1 : Fin 16), ∃ t : Fin grid0.N, win0_4.index t = ![q0.val, q1.val, 0])

/-- The features block of point t is batch t / 16's slab. -/
theorem feats_read (c : Dev nD) (t : Fin cfg0.N) (b : Fin 2) (hb : b.val = t.val / 16) (r : Fin 512) (d : Fin 1024) :
    (iblk m c 0 t : Vec Ideal S1x512x1024 .f32) (ix3 (0 : Fin 1) r d) = feats m c (ix3 b r d) := by
  obtain ⟨e0, e1, e2, -⟩ := idx_facts t
  show V m c main_v0 (((cfg0.win 0).blk t).view.emb (ix3 (0 : Fin 1) r d)) = V m c main_v0 (ix3 b r d)
  refine congrArg (V m c main_v0) ?_
  funext a; apply Fin.ext
  match a with
  | ⟨0, _⟩ => show win0_0.index t (0 : Fin 3) * 1 + 1 * 0 = b.val; omega
  | ⟨1, _⟩ => show win0_0.index t (1 : Fin 3) * 512 + 1 * r.val = r.val; omega
  | ⟨2, _⟩ => show win0_0.index t (2 : Fin 3) * 1024 + 1 * d.val = d.val; omega

/-- The first weight matrix's block is the whole matrix at every point. -/
theorem wq_read (c : Dev nD) (t : Fin cfg0.N) (q : Fin 512) (d : Fin 1024) :
    (iblk m c 1 t : Vec Ideal S512x1024 .f32) (ix2 q d) = wq m c (ix2 q d) := by
  obtain ⟨-, -, -, e0, e1, -⟩ := idx_facts t
  show V m c main_arg1 (((cfg0.win 1).blk t).view.emb (ix2 q d)) = V m c main_arg1 (ix2 q d)
  refine congrArg (V m c main_arg1) ?_
  funext a; apply Fin.ext
  match a with
  | ⟨0, _⟩ => show win0_1.index t (0 : Fin 2) * 512 + 1 * q.val = q.val; omega
  | ⟨1, _⟩ => show win0_1.index t (1 : Fin 2) * 1024 + 1 * d.val = d.val; omega

/-- So is the second's. -/
theorem wk_read (c : Dev nD) (t : Fin cfg0.N) (q : Fin 512) (d : Fin 1024) :
    (iblk m c 2 t : Vec Ideal S512x1024 .f32) (ix2 q d) = wk m c (ix2 q d) := by
  obtain ⟨-, -, -, -, -, e0, e1, -⟩ := idx_facts t
  show V m c main_arg2 (((cfg0.win 2).blk t).view.emb (ix2 q d)) = V m c main_arg2 (ix2 q d)
  refine congrArg (V m c main_arg2) ?_
  funext a; apply Fin.ext
  match a with
  | ⟨0, _⟩ => show win0_2.index t (0 : Fin 2) * 512 + 1 * q.val = q.val; omega
  | ⟨1, _⟩ => show win0_2.index t (1 : Fin 2) * 1024 + 1 * d.val = d.val; omega

/-- The bias block of point t is rows 32·(t mod 16) … of the bias matrix. -/
theorem bias_read (c : Dev nD) (t : Fin cfg0.N) (p : Fin 32) (j i : Fin 512) (hi : i.val = 32 * (t.val % 16) + p.val) :
    (iblk m c 3 t : Vec Ideal S32x512 .f32) (ix2 p j) = bias m c (ix2 i j) := by
  obtain ⟨-, -, -, -, -, -, -, e0, e1, -⟩ := idx_facts t
  show V m c main_arg3 (((cfg0.win 3).blk t).view.emb (ix2 p j)) = V m c main_arg3 (ix2 i j)
  refine congrArg (V m c main_arg3) ?_
  funext a; apply Fin.ext
  match a with
  | ⟨0, _⟩ => show win0_3.index t (0 : Fin 2) * 32 + 1 * p.val = i.val; omega
  | ⟨1, _⟩ => show win0_3.index t (1 : Fin 2) * 512 + 1 * j.val = j.val; omega

/-- The query tile's rows of a scratch: row p of the tile is row 32·(t mod 16) + p of the scratch. -/
theorem rows_read (t : Fin cfg0.N) (X : Vec Ideal S512x512 .f32) (p : Fin 32) (k i : Fin 512)
    (hi : i.val = 32 * (t.val % 16) + p.val) : rowsAt (grid0.coords t) X (ix2 p k) = X (ix2 i k) := by
  obtain ⟨-, -, -, -, -, -, -, -, -, -, -, -, e0, e1⟩ := idx_facts t
  show X ((Rect.unit (s := S512x512) (k0_off1 (grid0.coords t)) S32x512.size (k0_off1_inb (grid0.coords t))).idx (ix2 p k)) = X (ix2 i k)
  refine congrArg X ?_
  funext a; apply Fin.ext
  match a with
  | ⟨0, _⟩ => show k0_off1 (grid0.coords t) (0 : Fin 2) + 1 * p.val = i.val; omega
  | ⟨1, _⟩ => show k0_off1 (grid0.coords t) (1 : Fin 2) + 1 * k.val = k.val; omega

/-! ## The scratch invariant -/

/-- A batch's first point leaves the batch's projected features in the scratches. -/
theorem scratch_first (c : Dev nD) (t : Fin cfg0.N) (h0 : t.val % 16 = 0) (b : Fin 2) (hb : b.val = t.val / 16) (r q : Fin 512) :
    (outsAt0 m c t.val t.isLt).2.1 (ix2 r q) = proj (feats m c) (wq m c) b r q
      ∧ (outsAt0 m c t.val t.isLt).2.2 (ix2 r q) = proj (feats m c) (wk m c) b r q := by
  rw [outsAt0_A m c t h0]
  dsimp only
  unfold proj
  constructor
  · refine (congrFun (leftA (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t)) (ix2 r q)).trans ?_
    refine (left_apply (iblk m c 0 t) (iblk m c 1 t) r q).trans ?_
    exact Finset.sum_congr rfl fun d _ => congrArg₂ (· * ·) (feats_read m c t b hb r d) (wq_read m c t q d)
  · refine (congrFun (rightA (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t)) (ix2 r q)).trans ?_
    refine (right_apply (iblk m c 0 t) (iblk m c 2 t) r q).trans ?_
    exact Finset.sum_congr rfl fun d _ => congrArg₂ (· * ·) (feats_read m c t b hb r d) (wk_read m c t q d)

/-- After point n the scratches hold the projected features of batch n / 16: by induction on the point. -/
theorem scratch_inv (c : Dev nD) : ∀ (n : ℕ) (h : n < cfg0.N) (b : Fin 2), b.val = n / 16 → ∀ r q : Fin 512,
    (outsAt0 m c n h).2.1 (ix2 r q) = proj (feats m c) (wq m c) b r q
      ∧ (outsAt0 m c n h).2.2 (ix2 r q) = proj (feats m c) (wk m c) b r q
  | 0, h, b, hb, r, q => scratch_first m c ⟨0, h⟩ rfl b hb r q
  | n + 1, h, b, hb, r, q => by
    by_cases h0 : (n + 1) % 16 = 0
    · exact scratch_first m c ⟨n + 1, h⟩ h0 b hb r q
    · have hB : ¬(⟨n + 1, h⟩ : Fin cfg0.N).val % 16 = 0 := h0
      rw [outsAt0_B m c ⟨n + 1, h⟩ hB]
      dsimp only
      unfold sout0_B_0 sout0_B_1
      exact scratch_inv c n (Nat.lt_of_succ_lt h) b (by omega) r q

/-! ## What a point writes back -/

/-- In both cases the output block is the block function of what the scratches hold after the point. -/
theorem block_form (c : Dev nD) (t : Fin cfg0.N) :
    (outsAt0 m c t.val t.isLt).1
      = blockOf (rowsAt (grid0.coords t) (outsAt0 m c t.val t.isLt).2.1) (outsAt0 m c t.val t.isLt).2.2 (iblk m c 3 t) := by
  by_cases h0 : t.val % 16 = 0
  · rw [outsAt0_A m c t h0]
    dsimp only
    refine (blockA (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t)).trans ?_
    rw [leftA (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t),
      rightA (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t)]
  · rw [outsAt0_B m c t h0]
    dsimp only
    exact blockB (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (iblk m c 3 t)
      (outsAt0 m c (t.val - 1) (Nat.lt_of_le_of_lt (Nat.sub_le _ _) t.isLt)).2.1
      (outsAt0 m c (t.val - 1) (Nat.lt_of_le_of_lt (Nat.sub_le _ _) t.isLt)).2.2

/-- Entry (p, q) of point t's block is the specification at (t / 16, 32·(t mod 16) + p, q). -/
theorem out_apply (c : Dev nD) (t : Fin cfg0.N) (b : Fin 2) (hb : b.val = t.val / 16) (p : Fin 32) (q i : Fin 512)
    (hi : i.val = 32 * (t.val % 16) + p.val) :
    (outsAt0 m c t.val t.isLt).1 (ix3 (0 : Fin 1) p q) = attn (feats m c) (wq m c) (wk m c) (bias m c) (ix3 b i q) := by
  rw [block_form m c t, attn_apply]
  refine (block_apply (rowsAt (grid0.coords t) (outsAt0 m c t.val t.isLt).2.1) (outsAt0 m c t.val t.isLt).2.2 (iblk m c 3 t) p q).trans ?_
  refine congrArg (softmaxRow · q) (funext fun j => ?_)
  have e1 : (fun k => rowsAt (grid0.coords t) (outsAt0 m c t.val t.isLt).2.1 (ix2 p k)) = proj (feats m c) (wq m c) b i :=
    funext fun k => (rows_read t _ p k i hi).trans (scratch_inv m c t.val t.isLt b hb i k).1
  have e2 : (fun k => (outsAt0 m c t.val t.isLt).2.2 (ix2 j k)) = proj (feats m c) (wk m c) b j :=
    funext fun k => (scratch_inv m c t.val t.isLt b hb j k).2
  rw [e1, e2, bias_read m c t p j i hi]

/-- WHAT POINT t WRITES BACK is block t of the specification. -/
theorem flushed_eq (c : Dev nD) (t : Fin cfg0.N) :
    (dats m 0 c).flushed 4 t = ((cfg0.win 4).blk t).view.read (Elt Ideal) (attn (feats m c) (wq m c) (wk m c) (bias m c)) := by
  rw [flushed4]
  obtain ⟨-, -, -, -, -, -, -, -, -, e0, e1, e2, -⟩ := idx_facts t
  have hN : t.val < 32 := lt_of_lt_of_eq t.isLt N_0
  show (fun y : S1x32x512.Idx => (outsAt0 m c t.val t.isLt).1 y)
    = fun y : S1x32x512.Idx => attn (feats m c) (wq m c) (wk m c) (bias m c) (((cfg0.win 4).blk t).view.emb y)
  funext y
  obtain ⟨u, p, q, rfl⟩ : ∃ (u : Fin 1) (p : Fin 32) (q : Fin 512), y = ix3 u p q := ⟨y 0, y 1, y 2, eq_ix3 y⟩
  obtain rfl : u = 0 := Subsingleton.elim _ _
  rw [out_apply m c t ⟨t.val / 16, by omega⟩ rfl p q ⟨32 * (t.val % 16) + p.val, by have := p.isLt; omega⟩ rfl]
  refine congrArg (attn (feats m c) (wq m c) (wk m c) (bias m c)) ?_
  funext a; apply Fin.ext
  match a with
  | ⟨0, _⟩ => show t.val / 16 = win0_4.index t (0 : Fin 3) * 1 + 1 * 0; omega
  | ⟨1, _⟩ => show 32 * (t.val % 16) + p.val = win0_4.index t (1 : Fin 3) * 32 + 1 * p.val; omega
  | ⟨2, _⟩ => show q.val = win0_4.index t (2 : Fin 3) * 512 + 1 * q.val; omega

/-! ## The blocks tile the result -/

/-- An index of the result is in point t's block iff each coordinate is in the block's range on its axis. -/
theorem mem_blk (t : Fin cfg0.N) (i : S2x512x512.Idx) :
    i ∈ ((cfg0.win 4).blk t).view.set ↔ ∀ a : Fin 3, win0_4.index t a * S1x32x512.size a ≤ (i a).val
      ∧ (i a).val < win0_4.index t a * S1x32x512.size a + S1x32x512.size a := by
  show i ∈ ((View.whole main_v1).slice (win0_4.rect t)).set ↔ _
  rw [View.set_slice_whole, Rect.mem_set_unit]
  exact Iff.rfl

/-- Every index of the result is in some point's block: batch (i 0), query tile (i 1) / 32. -/
theorem cover (i : S2x512x512.Idx) : ∃ t : Fin cfg0.N, (cfg0.win 4).flush t = true ∧ i ∈ ((cfg0.win 4).blk t).view.set := by
  have hi0 : (i 0).val < 2 := (i 0).isLt
  have hi1 : (i 1).val < 512 := (i 1).isLt
  have hi2 : (i 2).val < 512 := (i 2).isLt
  obtain ⟨t, ht⟩ := idx_onto ⟨(i 0).val, hi0⟩ ⟨(i 1).val / 32, by omega⟩
  have q0 : win0_4.index t (0 : Fin 3) = (i 0).val := congrFun ht 0
  have q1 : win0_4.index t (1 : Fin 3) = (i 1).val / 32 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 32 ≤ (i 1).val ∧ (i 1).val < win0_4.index t (1 : Fin 3) * 32 + 32; omega
  | ⟨2, _⟩ => show win0_4.index t (2 : Fin 3) * 512 ≤ (i 2).val ∧ (i 2).val < win0_4.index t (2 : Fin 3) * 512 + 512; omega

/-- THE RESULT ARRAY after the run is the specification of the arrays the region finds. -/
theorem final (c : Dev nD) : (dats m 0 c).arrAt 4 cfg0.N = attn (feats m c) (wq m c) (wk m c) (bias m c) :=
  (dats m 0 c).arrAt_eq_of_cover 4 (attn (feats m c) (wq m c) (wk m c) (bias m c)) (fun t _ => flushed_eq m c t) cover

/-! ## The run, read -/

/-- The region finds the features reshaped and the other three arguments as launched. -/
theorem feats_eq (c : Dev nD) :
    feats m c = shapeCast S2x512x1024 (m ((c : Thread nD τ).loc main_arg0)) shapeCasts_S2x512x64x16_S2x512x1024 := by
  unfold feats
  dsimp only [Gen.V, Gen.hostOps0]
  after_results
  rfl
theorem wq_eq (c : Dev nD) : wq m c = m ((c : Thread nD τ).loc main_arg1) := V_main_arg1 m c
theorem wk_eq (c : Dev nD) : wk m c = m ((c : Thread nD τ).loc main_arg2) := V_main_arg2 m c
theorem bias_eq (c : Dev nD) : bias m c = m ((c : Thread nD τ).loc main_arg3) := V_main_arg3 m c

/-- Every weakly fair execution of the idealized kernel ends with the result array at the attention weights of the
    reshaped features, and the arguments unchanged. -/
theorem run : θ_run defs (onTc (τ := τ) (main (F := Ideal))) ⟨m, fun _ => 0, ρ⟩ fun r => ∀ c : Dev nD,
      r.2.mem ((c : Thread nD τ).loc main_v1)
          = attn (shapeCast S2x512x1024 (m ((c : Thread nD τ).loc main_arg0)) shapeCasts_S2x512x64x16_S2x512x1024)
              (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (by rw [feats_eq, wq_eq, wk_eq, bias_eq])), (h c).2⟩)
    (run_blocks m ρ)

end Cert.KernelIdeal.AttnValue

end
-- ==== Proof.RefValue.lean ====
/-
  The reference's result is the specification's attention weights of its reshaped features.

  Read stage by stage at an entry (b, i, j):
    • the two projections are the batched products of the reshaped features with the weight matrices, so
      feature k of node n is `proj` of the specification;
    • the four-axis array of pairwise terms at (b, i, j, k) is 1 / (1 + exp (−(query feature k + key feature k))),
      with the two ones the word of 1.0: the instance's own sigmoid of that sum, by its definition;
    • the score is the zero word plus the sum of the terms over k, plus the bias entry (i, j);
    • the row's top value is the larger of the word of −∞ and the fold of the maximum over j from that word;
    • the result is the exponential of (score − top) over the zero word plus the row's sum of such exponentials.
-/
import proofs.«119343_j54065048322479_1_alg».proof.Proof.Gen.ReferenceIdeal.Read
import proofs.«119343_j54065048322479_1_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section

namespace Cert.ReferenceIdeal.Attn

open Cert.ReferenceIdeal Cert.ReferenceIdeal.Gen Cert.ReferenceIdeal.Read Idealize.ShloMosaic Idealize.ShloMosaic.ValueIdx
open Cert.AttnSpec
open scoped BigOperators

variable (x0 : (⟨S2x512x64x16, .f32⟩ : BufTy).Contents (Elt Ideal)) (x1 x2 : (⟨S512x1024, .f32⟩ : BufTy).Contents (Elt Ideal))
  (x3 : (⟨S512x512, .f32⟩ : BufTy).Contents (Elt Ideal))

/-! ## The index maps at coordinates -/

theorem lidx1 (b : Fin 2) (i k : Fin 512) (d : Fin 1024) : lidx_main_v1 (ix3 b i k) d = ix3 b i d :=
  funext fun a => Fin.ext (by match a with | ⟨0, _⟩ => rfl | ⟨1, _⟩ => rfl | ⟨2, _⟩ => rfl)
theorem ridx1 (b : Fin 2) (i k : Fin 512) (d : Fin 1024) : ridx_main_v1 (ix3 b i k) d = ix2 k d :=
  funext fun a => Fin.ext (by match a with | ⟨0, _⟩ => rfl | ⟨1, _⟩ => rfl)
theorem lidx2 (b : Fin 2) (i k : Fin 512) (d : Fin 1024) : lidx_main_v2 (ix3 b i k) d = ix3 b i d :=
  funext fun a => Fin.ext (by match a with | ⟨0, _⟩ => rfl | ⟨1, _⟩ => rfl | ⟨2, _⟩ => rfl)
theorem ridx2 (b : Fin 2) (i k : Fin 512) (d : Fin 1024) : ridx_main_v2 (ix3 b i k) d = ix2 k d :=
  funext fun a => Fin.ext (by match a with | ⟨0, _⟩ => rfl | ⟨1, _⟩ => rfl)
theorem idx14 (b : Fin 2) (i j k : Fin 512) : idx_main_v14 (ix3 b i j) k = ix4 b i j k :=
  funext fun a => Fin.ext (by match a with | ⟨0, _⟩ => rfl | ⟨1, _⟩ => rfl | ⟨2, _⟩ => rfl | ⟨3, _⟩ => rfl)
theorem idx5_3 (b : Fin 2) (i j k : Fin 512) : idx_main_v3 (idx_main_v5 (ix4 b i j k)) = ix3 b i k :=
  funext fun a => Fin.ext (by match a with | ⟨0, _⟩ => rfl | ⟨1, _⟩ => rfl | ⟨2, _⟩ => rfl)
theorem idx6_4 (b : Fin 2) (i j k : Fin 512) : idx_main_v4 (idx_main_v6 (ix4 b i j k)) = ix3 b j k :=
  funext fun a => Fin.ext (by match a with | ⟨0, _⟩ => rfl | ⟨1, _⟩ => rfl | ⟨2, _⟩ => rfl)
theorem idx16_15 (b : Fin 2) (i j : Fin 512) : idx_main_v15 (idx_main_v16 (ix3 b i j)) = ix2 i j :=
  funext fun a => Fin.ext (by match a with | ⟨0, _⟩ => rfl | ⟨1, _⟩ => rfl)
theorem idx22_21 (b : Fin 2) (i j : Fin 512) : idx_main_v21 (idx_main_v22 (ix3 b i j)) = ix2 b i :=
  funext fun a => Fin.ext (by match a with | ⟨0, _⟩ => rfl | ⟨1, _⟩ => rfl)
theorem idx27_26 (b : Fin 2) (i j : Fin 512) : idx_main_v26 (idx_main_v27 (ix3 b i j)) = ix2 b i :=
  funext fun a => Fin.ext (by match a with | ⟨0, _⟩ => rfl | ⟨1, _⟩ => rfl)
theorem idx25 (b : Fin 2) (i k : Fin 512) : idx_main_v25 (ix2 b i) k = ix3 b i k :=
  funext fun a => Fin.ext (by match a with | ⟨0, _⟩ => rfl | ⟨1, _⟩ => rfl | ⟨2, _⟩ => rfl)

/-! ## The projections and the pairwise term -/

theorem left_apply (b : Fin 2) (n m : Fin 512) :
    val_main_v1 (F := Ideal) x0 x1 (ix3 b n m) = proj (val_main_v0 (F := Ideal) x0) x1 b n m := by
  rw [val_main_v1_apply]
  exact Finset.sum_congr rfl fun d _ => by rw [lidx1, ridx1]

theorem right_apply (b : Fin 2) (n m : Fin 512) :
    val_main_v2 (F := Ideal) x0 x2 (ix3 b n m) = proj (val_main_v0 (F := Ideal) x0) x2 b n m := by
  rw [val_main_v2_apply]
  exact Finset.sum_congr rfl fun d _ => by rw [lidx2, ridx2]

/-- The pairwise term at (b, i, j, k): the sigmoid of query feature k plus key feature k. -/
theorem term_apply (b : Fin 2) (i j k : Fin 512) :
    val_main_v13 (F := Ideal) x0 x1 x2 (ix4 b i j k)
      = Ideal.logistic (proj (val_main_v0 (F := Ideal) x0) x1 b i k + proj (val_main_v0 (F := Ideal) x0) x2 b j k) := by
  rw [val_main_v13_apply, val_main_v12_apply, val_main_cst_0_apply, val_main_v11_apply, val_main_v10_apply, val_main_cst_apply,
    val_main_v9_apply, val_main_v8_apply, val_main_v7_apply, val_main_v5_apply, val_main_v3_apply, val_main_v6_apply,
    val_main_v4_apply, idx5_3, idx6_4, left_apply, right_apply]
  simp only [Ideal.hostDivf_def, Ideal.ofBits_def, Ideal.ofBits_one_f32, Ideal.addf_def, Ideal.hostUnary_exp_def,
    Ideal.hostNegf_def, Ideal.negf_def]
  rfl

/-! ## The score, the row's top value, the result -/

theorem score_apply (b : Fin 2) (i j : Fin 512) :
    val_main_v17 (F := Ideal) x0 x1 x2 x3 (ix3 b i j)
      = pairScore (proj (val_main_v0 (F := Ideal) x0) x1 b i) (proj (val_main_v0 (F := Ideal) x0) x2 b j) (x3 (ix2 i j)) := by
  rw [val_main_v17_apply, val_main_v14_apply, val_main_cst_1_apply, val_main_v16_apply, val_main_v15_apply, idx16_15]
  simp only [Ideal.addf_def, Ideal.ofBits_def, Ideal.ofBits_zero_f32, zero_add]
  unfold pairScore
  exact congrArg (· + x3 (ix2 i j)) (Finset.sum_congr rfl fun k _ => by rw [idx14, term_apply])

/-- The host's maximum over the last axis of a 2×512×512 array, at (b, i): the fold of the maximum over that
    row from the initial value. -/
theorem hostRowMax_apply (x : FVec Ideal S2x512x512 .f32) (init : FVec Ideal S_ .f32)
    (h' : S2x512x512.ReducesTo [2] S2x512) (h : S2x512x512.Reduces [2] S2x512) (hu : 0 < S_.numel) (b : Fin 2) (i : Fin 512) :
    Host.reduce (FloatOps.maximumf (F := Ideal) (φ := .f32)) x init h' hu (ix2 b i)
      = (Finset.univ : Finset (Fin 512)).fold max (init ix0) (fun j => x (ix3 b i j)) := by
  refine (Host.reduce_eq_fold_single FloatOps.maximumf x init h' h hu (ix2 b i)).trans ?_
  rw [eq_ix0 (Shape.Idx.first hu)]
  refine congrArg (Finset.fold max _ · _) (funext fun k => ?_)
  exact congrArg x (funext fun c => Fin.ext (by match c with | ⟨0, _⟩ => rfl | ⟨1, _⟩ => rfl | ⟨2, _⟩ => rfl))

theorem top_apply (b : Fin 2) (i : Fin 512) :
    val_main_v20 (F := Ideal) x0 x1 x2 x3 (ix2 b i)
      = rowTop (fun j => val_main_v17 (F := Ideal) x0 x1 x2 x3 (ix3 b i j)) := by
  rw [val_main_v20_apply, val_main_v19_apply, val_main_cst_3_apply]
  unfold val_main_v18 rowTop
  rw [hostRowMax_apply _ _ _ (by decide) _ b i]
  rfl

theorem exp_apply (b : Fin 2) (i j : Fin 512) :
    val_main_v24 (F := Ideal) x0 x1 x2 x3 (ix3 b i j)
      = Ideal.exp (val_main_v17 (F := Ideal) x0 x1 x2 x3 (ix3 b i j)
          - rowTop (fun j' => val_main_v17 (F := Ideal) x0 x1 x2 x3 (ix3 b i j'))) := by
  rw [val_main_v24_apply, val_main_v23_apply, val_main_v22_apply, val_main_v21_apply, idx22_21, top_apply]
  rfl

/-- THE REFERENCE: its result is the attention weights of the reshaped features. -/
theorem result_eq :
    val_main_v28 (F := Ideal) x0 x1 x2 x3 = attn (val_main_v0 (F := Ideal) x0) x1 x2 x3 := by
  funext y
  obtain ⟨b, i, j, rfl⟩ : ∃ (b : Fin 2) (i j : Fin 512), y = ix3 b i j := ⟨y 0, y 1, y 2, eq_ix3 y⟩
  rw [attn_apply, val_main_v28_apply, val_main_v27_apply, val_main_v26_apply, idx27_26, val_main_v25_apply,
    val_main_cst_4_apply]
  simp only [Ideal.hostDivf_def, Ideal.ofBits_def, Ideal.ofBits_zero_f32, zero_add]
  unfold softmaxRow
  have hs : (fun j' => pairScore (proj (val_main_v0 (F := Ideal) x0) x1 b i) (proj (val_main_v0 (F := Ideal) x0) x2 b j') (x3 (ix2 i j')))
      = fun j' => val_main_v17 (F := Ideal) x0 x1 x2 x3 (ix3 b i j') := funext fun j' => (score_apply x0 x1 x2 x3 b i j').symm
  rw [hs]
  exact congrArg₂ Ideal.div (exp_apply x0 x1 x2 x3 b i j)
    (Finset.sum_congr rfl fun k _ => by rw [idx25, exp_apply])

end Cert.ReferenceIdeal.Attn

end
-- ==== Proof.lean ====
/-
  Additive attention through a sigmoid with a softmax over the keys: a tiled kernel against its plain reference.

  Both programs flatten x to features f[b, n, ·] of length 1024, project every node onto 512 query features
  (f · W1ᵀ) and 512 key features (f · W2ᵀ), score a (query i, key j) pair by
      s[b, i, j] = Σ_k sigmoid (query[b, i, k] + key[b, j, k]) + Vs[i, j],
  and return softmax_j s[b, i, ·].

  The kernel walks a 2 × 16 grid.  At the first point of a batch it computes both projections of the whole batch
  into two scratches that it keeps for the batch's other fifteen points; every point then takes 32 query rows,
  forms the pairwise terms against all 512 key rows in four runs of 128 features, adds the runs from zero, adds
  its bias block, and normalises each of its 32 rows.  The reference does the same on whole arrays, with the
  sigmoid spelt 1 / (1 + exp (−·)) and one sum over all 512 features.

  On the extended reals the two agree entry by entry, with no use of the inputs' finiteness:
    • rounding the matmul operands to the narrower format is the identity, and a product into a zero accumulator
      is the reference's product;
    • the instance's sigmoid IS 1 / (1 + exp (−·)), by definition;
    • a sum over 512 features is the four runs added left to right from zero (addition is commutative and
      associative also at the infinities);
    • the softmax is spelt the same way on both sides: the same word of −∞ starts both maxima, and both divide by
      the plain sum of the row's exponentials (the reference's starts from the zero word).
  What ties the kernel's points together is the scratch invariant (`Cert.KernelIdeal.AttnValue.scratch_inv`):
  after every point the scratches hold the projections of that point's batch.

  The three frames are the generated ones (the reference's is its generated run with the result dropped); the
  ideal pass rewrote nothing, so `preserves` is `True`.
-/
import proofs.«119343_j54065048322479_1_alg».proof.Defs
import proofs.«119343_j54065048322479_1_alg».proof.Proof.Gen.Kernel
import proofs.«119343_j54065048322479_1_alg».proof.Proof.Gen.Kernel.Skeleton
import proofs.«119343_j54065048322479_1_alg».proof.Proof.Gen.Kernel.Launch
import proofs.«119343_j54065048322479_1_alg».proof.Proof.Gen.Kernel.Points
import proofs.«119343_j54065048322479_1_alg».proof.Proof.Gen.Kernel.Frame
import proofs.«119343_j54065048322479_1_alg».proof.Proof.Gen.KernelIdeal
import proofs.«119343_j54065048322479_1_alg».proof.Proof.Gen.KernelIdeal.Skeleton
import proofs.«119343_j54065048322479_1_alg».proof.Proof.Gen.KernelIdeal.Launch
import proofs.«119343_j54065048322479_1_alg».proof.Proof.Gen.KernelIdeal.Points
import proofs.«119343_j54065048322479_1_alg».proof.Proof.Gen.KernelIdeal.Frame
import proofs.«119343_j54065048322479_1_alg».proof.Proof.Gen.ReferenceIdeal
import proofs.«119343_j54065048322479_1_alg».proof.Proof.Gen.KernelIdeal.Value
import proofs.«119343_j54065048322479_1_alg».proof.Proof.Gen.ReferenceIdeal.Run
import proofs.«119343_j54065048322479_1_alg».proof.Proof.Gen.ReferenceIdeal.Read
import proofs.«119343_j54065048322479_1_alg».proof.Proof.Gen.Pre_finite_inputs
import proofs.«119343_j54065048322479_1_alg».proof.Proof.KernelValue
import proofs.«119343_j54065048322479_1_alg».proof.Proof.RefValue
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the specification's attention weights of the same reshaped features: the kernel's by the scratch
    invariant and the tiling of its blocks, the reference's stage by stage. -/
theorem algebraic : Cert.algebraic_KernelIdeal_ReferenceIdeal := by
  intro m ρ m' ρ' _ hagree
  refine ⟨_, Cert.KernelIdeal.AttnValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.Attn.result_eq, (hagree c).1, (hagree c).2.1,
    (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
